-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x16 : Shape := ⟨3, ![64, 1024, 16]⟩
abbrev S64x1024x1024 : Shape := ⟨3, ![64, 1024, 1024]⟩
abbrev S64x16 : Shape := ⟨2, ![64, 16]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S64x1024x16 : S_.BroadcastsInDim S64x1024x16 (![] : Fin 0 → Fin S64x1024x16.rank)
  reducesTo_S64x1024x16_S_d0_1_2 : S64x1024x16.ReducesTo [0, 1, 2] S_
  h_S_ : 0 < S_.numel
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32x64 .f32) (main_arg5 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg4
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S64x1024x16 .f32) (main_arg1 : FVec F S64x1024x1024 .f32) (main_arg2 : FVec F S64x16 .f32) (main_arg3 : FVec F S64 .f32) (main_arg4 : FVec F S32x64 .f32) (main_arg5 : FVec F S32 .f32) : IVec S_ 1 :=
  let main_v0 : FVec F S64x1024x16 .f32 := Host.absf main_arg0
  let main_cst : FVec F S_ .f32 := constant S_ .f32 0x7F800000#32
  let main_v1 : FVec F S64x1024x16 .f32 := broadcastInDim S64x1024x16 ![] bcast_S_S64x1024x16 main_cst
  let main_v2 : IVec S64x1024x16 1 := cmpf .olt main_v0 main_v1
  let main_c : IVec S_ 1 := constantI S_ 1 1#1
  let main_v3 : IVec S_ 1 := (fun x v => Host.reduce IntOp.andi x v reducesTo_S64x1024x16_S_d0_1_2 h_S_) main_v2 main_c
  let main_v4 : FVec F S64x1024x1024 .f32 := Host.absf main_arg1
  let main_cst_0 : FVec F S_ .f32 := constant S_ .f32 0x7F800000#32
  let main_v5 : FVec F S64x1024x1024 .f32 := broadcastInDim S64x1024x1024 ![] bcast_S_S64x1024x1024 main_cst_0
  let main_v6 : IVec S64x1024x1024 1 := cmpf .olt main_v4 main_v5
  let main_c_1 : IVec S_ 1 := constantI S_ 1 1#1
  let main_v7 : IVec S_ 1 := (fun x v => Host.reduce IntOp.andi x v reducesTo_S64x1024x1024_S_d0_1_2 h_S_) main_v6 main_c_1
  let main_v8 : IVec S_ 1 := andi main_v3 main_v7
  let main_v9 : FVec F S64x16 .f32 := Host.absf main_arg2
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S64x1024x16 : Shape := ⟨3, ![64, 1024, 16]⟩
abbrev S64x1024x1024 : Shape := ⟨3, ![64, 1024, 1024]⟩
abbrev S64x16 : Shape := ⟨2, ![64, 16]⟩
abbrev S64 : Shape := ⟨1, ![64]⟩
abbrev S32x64 : Shape := ⟨2, ![32, 64]⟩
abbrev S32 : Shape := ⟨1, ![32]⟩
abbrev S1x64 : Shape := ⟨2, ![1, 64]⟩
abbrev S1x32 : Shape := ⟨2, ![1, 32]⟩
abbrev S64x1024x32 : Shape := ⟨3, ![64, 1024, 32]⟩
abbrev S1x1024x16 : Shape := ⟨3, ![1, 1024, 16]⟩
abbrev S1x1024x1024 : Shape := ⟨3, ![1, 1024, 1024]⟩
abbrev S1x1024x32 : Shape := ⟨3, ![1, 1024, 32]⟩
abbrev S1024x1024 : Shape := ⟨2, ![1024, 1024]⟩
abbrev S1024 : Shape := ⟨1, ![1024]⟩
abbrev S1024x1 : Shape := ⟨2, ![1024, 1]⟩
abbrev S1024x16 : Shape := ⟨2, ![1024, 16]⟩
abbrev S1024x64 : Shape := ⟨2, ![1024, 64]⟩
abbrev S1024x32 : Shape := ⟨2, ![1024, 32]⟩

abbrev nBuf : Space → Nat
  | .hbm => 9
  | .vmem => 10
  | .smem => 0
  | _ => 0

abbrev bufTy : (tb : Table) → Fin (tcTables nBuf tb) → BufTy
  | .hbm, ⟨0, _⟩ => ⟨S64x1024x16, .f32⟩
  | .hbm, ⟨1, _⟩ => ⟨S64x1024x1024, .f32⟩
  | .hbm, ⟨2, _⟩ => ⟨S64x16, .f32⟩
  | .hbm, ⟨3, _⟩ => ⟨S64, .f32⟩
  | .hbm, ⟨4, _⟩ => ⟨S32x64, .f32⟩
  | .hbm, ⟨5, _⟩ => ⟨S32, .f32⟩
  | .hbm, ⟨6, _⟩ => ⟨S1x64, .f32⟩
  | .hbm, ⟨7, _⟩ => ⟨S1x32, .f32⟩
  | .hbm, ⟨8, _⟩ => ⟨S64x1024x32, .f32⟩
  | .local _ .vmem, ⟨0, _⟩ => ⟨S1x1024x16, .f32⟩
  | .local _ .vmem, ⟨1, _⟩ => ⟨S1x1024x16, .f32⟩
  | .local _ .vmem, ⟨2, _⟩ => ⟨S1x1024x1024, .f32⟩
  | .local _ .vmem, ⟨3, _⟩ => ⟨S1x1024x1024, .f32⟩
  | .local _ .vmem, ⟨4, _⟩ => ⟨S64x16, .f32⟩
  | .local _ .vmem, ⟨5, _⟩ => ⟨S1x64, .f32⟩
  | .local _ .vmem, ⟨6, _⟩ => ⟨S32x64, .f32⟩
  | .local _ .vmem, ⟨7, _⟩ => ⟨S1x32, .f32⟩
  | .local _ .vmem, ⟨8, _⟩ => ⟨S1x1024x32, .f32⟩
  | .local _ .vmem, ⟨9, _⟩ => ⟨S1x1024x32, .f32⟩
  | _, _ => ⟨S64x1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64_S1x64 : S64.ShapeCasts S1x64
  shapeCasts_S32_S1x32 : S32.ShapeCasts S1x32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  bitsLt_bf16_f32 : FTy.bits .bf16 < FTy.bits .f32
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  inb_S64x16_S64x16_0_0 : ∀ a, (![0, 0] : Fin 2 → Nat) a + S64x16.size a ≤ S64x16.size a
  h_S64x16 : 0 < S64x16.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  broadcasts_S1024x1_S1024x64 : S1024x1.Broadcasts S1024x64
  inb_S32x64_S32x64_0_0 : ∀ a, (![0, 0] : Fin 2 → Nat) a + S32x64.size a ≤ S32x64.size a
  h_S32x64 : 0 < S32x64.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  broadcasts_S1024x1_S1024x32 : S1024x1.Broadcasts S1024x32
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  shapeCasts_S1024x32_S1x1024x32 : S1024x32.ShapeCasts S1x1024x32
  dot_S1024x16_S64x16_S1024x64_1_1_0_0_n_n_wf : DotDims.WF S1024x16 S64x16 S1024x64 [1] [1] [0] [0] [] []
  dot_S1024x1024_S1024x64_S1024x64_1_0_0_1_n_n_wf : DotDims.WF S1024x1024 S1024x64 S1024x64 [1] [0] [0] [1] [] []
  dot_S1024x64_S32x64_S1024x32_1_1_0_0_n_n_wf : DotDims.WF S1024x64 S32x64 S1024x32 [1] [1] [0] [0] [] []
  dot_S1024x1024_S1024x32_S1024x32_1_0_0_1_n_n_wf : DotDims.WF S1024x1024 S1024x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x16.size a ≤ S64x1024x16.size a
  hwx0_0 : ∀ i : grid0.Coords, EltTy.bits .f32 = 32 ∨ (Rect.block (s := S64x1024x16) S1x1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S64x1024x1024.size a
  hwx0_1 : ∀ i : grid0.Coords, EltTy.bits .f32 = 32 ∨ (Rect.block (s := S64x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S64x16.size a
  hwx0_2 : ∀ i : grid0.Coords, EltTy.bits .f32 = 32 ∨ (Rect.block (s := S64x16) S64x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x32.size a ≤ S64x1024x32.size a
  hwx0_6 : ∀ i : grid0.Coords, EltTy.bits .f32 = 32 ∨ (Rect.block (s := S64x1024x32) S1x1024x32.size (cc0_transform_6 i) (hinb0_6 i)).WholeWords (EltTy.packing .f32)

variable [Facts₀]

def dot_S1024x16_S64x16_S1024x64_1_1_0_0_n_n : DotDims S1024x16 S64x16 S1024x64 where
  lhsContracting := [1]
  rhsContracting := [1]
  lhsNonContracting := [0]
  rhsNonContracting := [0]
  lhsBatch := []
  rhsBatch := []
  wf := dot_S1024x16_S64x16_S1024x64_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S32x64_S1024x32_1_1_0_0_n_n : DotDims S1024x64 S32x64 S1024x32 where
  lhsContracting := [1]
  rhsContracting := [1]
  lhsNonContracting := [0]
  rhsNonContracting := [0]
  lhsBatch := []
  rhsBatch := []
  wf := dot_S1024x64_S32x64_S1024x32_1_1_0_0_n_n_wf
def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf

abbrev win0_0 : Pipeline.Window sig grid0 :=
  Pipeline.Window.ofSpec (Memref.whole main_arg0) S1x1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x1024x16 : Shape := ⟨3, ![64, 1024, 16]⟩
abbrev S64x1024x1024 : Shape := ⟨3, ![64, 1024, 1024]⟩
abbrev S64x16 : Shape := ⟨2, ![64, 16]⟩
abbrev S64 : Shape := ⟨1, ![64]⟩
abbrev S32x64 : Shape := ⟨2, ![32, 64]⟩
abbrev S32 : Shape := ⟨1, ![32]⟩
abbrev S1024x1024 : Shape := ⟨2, ![1024, 1024]⟩
abbrev S_ : Shape := ⟨0, ![]⟩
abbrev S1x1024x1024 : Shape := ⟨3, ![1, 1024, 1024]⟩
abbrev S64x1024 : Shape := ⟨2, ![64, 1024]⟩
abbrev S64x1024x1 : Shape := ⟨3, ![64, 1024, 1]⟩
abbrev S64x1024x64 : Shape := ⟨3, ![64, 1024, 64]⟩
abbrev S1x1x64 : Shape := ⟨3, ![1, 1, 64]⟩
abbrev S64x1024x32 : Shape := ⟨3, ![64, 1024, 32]⟩
abbrev S1x1x32 : Shape := ⟨3, ![1, 1, 32]⟩

abbrev nBuf : Space → Nat
  | .hbm => 46
  | .vmem => 0
  | .smem => 0
  | _ => 0

abbrev bufTy : (tb : Table) → Fin (tcTables nBuf tb) → BufTy
  | .hbm, ⟨0, _⟩ => ⟨S64x1024x16, .f32⟩
  | .hbm, ⟨1, _⟩ => ⟨S64x1024x1024, .f32⟩
  | .hbm, ⟨2, _⟩ => ⟨S64x16, .f32⟩
  | .hbm, ⟨3, _⟩ => ⟨S64, .f32⟩
  | .hbm, ⟨4, _⟩ => ⟨S32x64, .f32⟩
  | .hbm, ⟨5, _⟩ => ⟨S32, .f32⟩
  | .hbm, ⟨6, _⟩ => ⟨S1024x1024, .i32⟩
  | .hbm, ⟨7, _⟩ => ⟨S1024x1024, .i32⟩
  | .hbm, ⟨8, _⟩ => ⟨S_, .i32⟩
  | .hbm, ⟨9, _⟩ => ⟨S1024x1024, .i32⟩
  | .hbm, ⟨10, _⟩ => ⟨S1024x1024, .i32⟩
  | .hbm, ⟨11, _⟩ => ⟨S1024x1024, .i1⟩
  | .hbm, ⟨12, _⟩ => ⟨S1024x1024, .f32⟩
  | .hbm, ⟨13, _⟩ => ⟨S1x1024x1024, .f32⟩
  | .hbm, ⟨14, _⟩ => ⟨S64x1024x1024, .f32⟩
  | .hbm, ⟨15, _⟩ => ⟨S64x1024x1024, .f32⟩
  | .hbm, ⟨16, _⟩ => ⟨S_, .f32⟩
  | .hbm, ⟨17, _⟩ => ⟨S64x1024, .f32⟩
  | .hbm, ⟨18, _⟩ => ⟨S_, .f32⟩
  | .hbm, ⟨19, _⟩ => ⟨S64x1024, .f32⟩
  | .hbm, ⟨20, _⟩ => ⟨S64x1024, .i1⟩
  | .hbm, ⟨21, _⟩ => ⟨S_, .f32⟩
  | .hbm, ⟨22, _⟩ => ⟨S64x1024, .f32⟩
  | .hbm, ⟨23, _⟩ => ⟨S_, .f32⟩
  | .hbm, ⟨24, _⟩ => ⟨S64x1024, .f32⟩
  | .hbm, ⟨25, _⟩ => ⟨S64x1024, .f32⟩
  | .hbm, ⟨26, _⟩ => ⟨S64x1024, .f32⟩
  | .hbm, ⟨27, _⟩ => ⟨S64x1024x1, .f32⟩
  | .hbm, ⟨28, _⟩ => ⟨S64x1024x1024, .f32⟩
  | .hbm, ⟨29, _⟩ => ⟨S64x1024x1024, .f32⟩
  | .hbm, ⟨30, _⟩ => ⟨S64x1024x64, .f32⟩
  | .hbm, ⟨31, _⟩ => ⟨S1x1x64, .f32⟩
  | .hbm, ⟨32, _⟩ => ⟨S64x1024x64, .f32⟩
  | .hbm, ⟨33, _⟩ => ⟨S64x1024x64, .f32⟩
  | .hbm, ⟨34, _⟩ => ⟨S64x1024x64, .f32⟩
  | .hbm, ⟨35, _⟩ => ⟨S_, .f32⟩
  | .hbm, ⟨36, _⟩ => ⟨S64x1024x64, .f32⟩
  | .hbm, ⟨37, _⟩ => ⟨S64x1024x64, .f32⟩
  | .hbm, ⟨38, _⟩ => ⟨S64x1024x32, .f32⟩
  | .hbm, ⟨39, _⟩ => ⟨S1x1x32, .f32⟩
  | .hbm, ⟨40, _⟩ => ⟨S64x1024x32, .f32⟩
  | .hbm, ⟨41, _⟩ => ⟨S64x1024x32, .f32⟩
  | .hbm, ⟨42, _⟩ => ⟨S64x1024x32, .f32⟩
  | .hbm, ⟨43, _⟩ => ⟨S_, .f32⟩
  | .hbm, ⟨44, _⟩ => ⟨S64x1024x32, .f32⟩
  | .hbm, ⟨45, _⟩ => ⟨S64x1024x32, .f32⟩
  | _, _ => ⟨S64x1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call1_cst : Ref sig .tc := ⟨.hbm, 35, rfl⟩
abbrev main_call1_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call2_cst : Ref sig .tc := ⟨.hbm, 43, rfl⟩
abbrev main_call2_v0 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S64x1024x1024_0_1_2 : S1x1024x1024.BroadcastsInDim S64x1024x1024 (![0, 1, 2] : Fin 3 → Fin S64x1024x1024.rank)
  reducesTo_S64x1024x1024_S64x1024_d2 : S64x1024x1024.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  bcast_S64_S1x1x64_2 : S64.BroadcastsInDim S1x1x64 (![2] : Fin 1 → Fin S1x1x64.rank)
  bcast_S1x1x64_S64x1024x64_0_1_2 : S1x1x64.BroadcastsInDim S64x1024x64 (![0, 1, 2] : Fin 3 → Fin S64x1024x64.rank)
  bcast_S_S64x1024x64 : S_.BroadcastsInDim S64x1024x64 (![] : Fin 0 → Fin S64x1024x64.rank)
  bcast_S32_S1x1x32_2 : S32.BroadcastsInDim S1x1x32 (![2] : Fin 1 → Fin S1x1x32.rank)
  bcast_S1x1x32_S64x1024x32_0_1_2 : S1x1x32.BroadcastsInDim S64x1024x32 (![0, 1, 2] : Fin 3 → Fin S64x1024x32.rank)
  bcast_S_S64x1024x32 : S_.BroadcastsInDim S64x1024x32 (![] : Fin 0 → Fin S64x1024x32.rank)
  dot_S64x1024x16_S64x16_S64x1024x64_2_1_01_0_n_n_wf : DotDims.WF S64x1024x16 S64x16 S64x1024x64 [2] [1] [0, 1] [0] [] []
  dot_S64x1024x1024_S64x1024x64_S64x1024x64_2_1_1_2_0_0_wf : DotDims.WF S64x1024x1024 S64x1024x64 S64x1024x64 [2] [1] [1] [2] [0] [0]
  dot_S64x1024x64_S32x64_S64x1024x32_2_1_01_0_n_n_wf : DotDims.WF S64x1024x64 S32x64 S64x1024x32 [2] [1] [0, 1] [0] [] []
  dot_S64x1024x1024_S64x1024x32_S64x1024x32_2_1_1_2_0_0_wf : DotDims.WF S64x1024x1024 S64x1024x32 S64x1024x32 [2] [1] [1] [2] [0] [0]

variable [Facts₀]

def dot_S64x1024x16_S64x16_S64x1024x64_2_1_01_0_n_n : DotDims S64x1024x16 S64x16 S64x1024x64 where
  lhsContracting := [2]
  rhsContracting := [1]
  lhsNonContracting := [0, 1]
  rhsNonContracting := [0]
  lhsBatch := []
  rhsBatch := []
  wf := dot_S64x1024x16_S64x16_S64x1024x64_2_1_01_0_n_n_wf
def dot_S64x1024x1024_S64x1024x64_S64x1024x64_2_1_1_2_0_0 : DotDims S64x1024x1024 S64x1024x64 S64x1024x64 where
  lhsContracting := [2]
  rhsContracting := [1]
  lhsNonContracting := [1]
  rhsNonContracting := [2]
  lhsBatch := [0]
  rhsBatch := [0]
  wf := dot_S64x1024x1024_S64x1024x64_S64x1024x64_2_1_1_2_0_0_wf
def dot_S64x1024x64_S32x64_S64x1024x32_2_1_01_0_n_n : DotDims S64x1024x64 S32x64 S64x1024x32 where
  lhsContracting := [2]
  rhsContracting := [1]
  lhsNonContracting := [0, 1]
  rhsNonContracting := [0]
  lhsBatch := []
  rhsBatch := []
  wf := dot_S64x1024x64_S32x64_S64x1024x32_2_1_01_0_n_n_wf
def dot_S64x1024x1024_S64x1024x32_S64x1024x32_2_1_1_2_0_0 : DotDims S64x1024x1024 S64x1024x32 S64x1024x32 where
  lhsContracting := [2]
  rhsContracting := [1]
  lhsNonContracting := [1]
  rhsNonContracting := [2]
  lhsBatch := [0]
  rhsBatch := [0]
  wf := dot_S64x1024x1024_S64x1024x32_S64x1024x32_2_1_1_2_0_0_wf

class Facts : Prop extends Facts₀ where

variable [Facts]
-- ==== Proof.LibDenseEdges.lean ====
/-
  A dense matrix assembled from an edge list, applied to a column, against the edgewise sum.

  Edges e carry a weight a_e, a target r_e and a source c_e.  The dense matrix has entry
  (n, k) = ∑ of a_e over the edges with r_e = n and c_e = k  (parallel edges add up).  Applying it to a
  column t gives, at row n,  ∑_k L(n, k) · t_k.  The edgewise form aggregates at the target directly:
  ∑ of a_e · t_{c_e} over the edges with r_e = n.  The two agree because a product distributes over a finite
  sum — which on the extended reals needs every weight and every entry of the column to be a real number:
  with a weight +∞ beside a weight −∞ on parallel edges, or an infinite entry of t against weights that cancel,
  the two sides differ.  So the identity is stated for real-valued data, and the closure lemmas below are what
  carries "every entry is a real number" through sums, products, negation and maxima.
-/
import Idealize.ShloMosaic.PureOps.Ideal.Laws

noncomputable section

open scoped BigOperators

namespace Cert.DenseEdges

/-! ## Extended reals that are real numbers -/

/-- An extended real that is a real number (neither infinity). -/
def IsReal (x : EReal) : Prop := ∃ r : ℝ, x = (r : EReal)

theorem isReal_of_ne {x : EReal} (hb : x ≠ ⊥) (ht : x ≠ ⊤) : IsReal x :=
  ⟨x.toReal, (EReal.coe_toReal ht hb).symm⟩

theorem IsReal.ne_bot {x : EReal} (h : IsReal x) : x ≠ ⊥ := by
  obtain ⟨r, rfl⟩ := h; exact EReal.coe_ne_bot r

theorem IsReal.ne_top {x : EReal} (h : IsReal x) : x ≠ ⊤ := by
  obtain ⟨r, rfl⟩ := h; exact EReal.coe_ne_top r

theorem isReal_zero : IsReal 0 := ⟨0, EReal.coe_zero.symm⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.neg {x : EReal} (hx : IsReal x) : IsReal (-x) := by
  obtain ⟨r, rfl⟩ := hx; exact ⟨-r, (EReal.coe_neg r).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro i s hi ih
    rw [Finset.sum_insert hi, Finset.sum_insert hi, EReal.coe_add, ih]

/-- A finite sum of real numbers is a real number. -/
theorem isReal_sum {ι : Type*} (s : Finset ι) (f : ι → EReal) (h : ∀ i ∈ s, IsReal (f i)) :
    IsReal (∑ i ∈ s, f i) := by
  classical
  refine Finset.induction_on s (fun _ => ?_) (fun i s hi ih h => ?_) h
  · rw [Finset.sum_empty]; exact isReal_zero
  · rw [Finset.sum_insert hi]
    exact (h i (Finset.mem_insert_self i s)).add (ih fun j hj => h j (Finset.mem_insert_of_mem hj))

/-! ## The dense form against the edgewise form -/

/-- Over the reals: summing the dense matrix's row n against the column is summing, over the edges into n, the
    weight times the column's entry at the edge's source. -/
theorem real_dense_eq_edges {E N : Type*} [Fintype E] [Fintype N] [DecidableEq N]
    (r c : E → N) (a : E → ℝ) (t : N → ℝ) (n : N) :
    ∑ k, (∑ e ∈ Finset.univ.filter (fun e => r e = n ∧ c e = k), a e) * t k
      = ∑ e ∈ Finset.univ.filter (fun e => r e = n), a e * t (c e) := by
  simp only [Finset.sum_mul, Finset.sum_filter]
  rw [Finset.sum_comm]
  refine Finset.sum_congr rfl fun e _ => ?_
  by_cases h : r e = n
  · simp only [h, true_and, if_true, ite_mul, zero_mul]
    rw [Finset.sum_ite_eq Finset.univ (c e) (fun k => a e * t k)]
    simp
  · simp only [h, false_and, if_false, zero_mul, Finset.sum_const_zero]

/-- THE IDENTITY over the extended reals, for real-valued weights and a real-valued column: row n of the dense
    matrix (each entry the zero it was initialised with plus its parallel edges' weights) against the column
    equals the zero plus the edgewise sum at the target n. -/
theorem dense_eq_edges {E N : Type*} [Fintype E] [Fintype N] [DecidableEq N]
    (r c : E → N) (a : E → EReal) (t : N → EReal)
    (ha : ∀ e, IsReal (a e)) (ht : ∀ k, IsReal (t k)) (n : N) :
    ∑ k, ((0 : EReal) + ∑ e ∈ Finset.univ.filter (fun e => r e = n ∧ c e = k), a e) * t k
      = (0 : EReal) + ∑ e ∈ Finset.univ.filter (fun e => r e = n), a e * t (c e) := by
  choose a' ha' using ha
  choose t' ht' using ht
  simp only [ha', ht', zero_add, ← coe_sum, ← EReal.coe_mul]
  exact congrArg _ (real_dense_eq_edges r c a' t' n)

/-- The dense product's entries are real numbers when the weights and the column are. -/
theorem isReal_dense {E N : Type*} [Fintype E] [Fintype N] [DecidableEq N]
    (r c : E → N) (a : E → EReal) (t : N → EReal)
    (ha : ∀ e, IsReal (a e)) (ht : ∀ k, IsReal (t k)) (n : N) :
    IsReal (∑ k, ((0 : EReal) + ∑ e ∈ Finset.univ.filter (fun e => r e = n ∧ c e = k), a e) * t k) :=
  isReal_sum _ _ fun k _ => (isReal_zero.add (isReal_sum _ _ fun e _ => ha e)).mul (ht k)

end Cert.DenseEdges

end
-- ==== Proof.LibLoopedMean.lean ====
/-
  A graph layer that averages a feature over a node's neighbours AND the node itself, in two arrangements,
  over the extended reals.

  For a weighted graph on the nodes N with weights g n m, give every node a loop of weight one: the looped
  weights are g n m + [n = m].  The looped degree of n is ∑ m, (g n m + [n = m]) = (∑ m, g n m) + 1, and the
  guarded reciprocal d n of the degree is 0 where the degree is 0 and 1 / degree elsewhere.  One layer sends node
  features a to   n ↦ max (∑ m, ((g n m + [n = m]) · d n) · a m) 0   — the row-normalised looped matrix applied to
  a, then a rectifier.  Since the loop contributes exactly a n, and d n does not depend on m, the same number is
  max ((∑ m, g n m · a m + a n) · d n) 0 :  aggregate over the ORIGINAL weights, add the node's own feature, scale
  once.  The first arrangement forms an N × N matrix, the second never does.

  The step between them moves a factor across a finite sum and distributes a product over a sum; on the extended
  reals both fail at infinities (∞ · (1 + (−1)) against ∞ − ∞), so the identity is stated for real-valued weights
  and features, and each layer's output is shown real-valued again so that layers compose.  The degree identity
  needs nothing: sums of extended reals commute and associate.
-/
import Idealize.ShloMosaic.PureOps.Ideal
import Idealize.ShloMosaic.PureOps.Ideal.Laws
import proofs.«120758_j35673998360640_2_alg».proof.Proof.LibDenseEdges

noncomputable section

open scoped BigOperators

namespace Cert.LoopedMean

open Idealize.ShloMosaic Cert.DenseEdges

theorem isReal_one : IsReal 1 := ⟨1, EReal.coe_one.symm⟩

/-! ## The guarded reciprocal -/

/-- z where s equals z, and one / s elsewhere: with z = 0 and one = 1, the reciprocal guarded against a zero. -/
def guardInv (z one s : EReal) : EReal := Scalar.select (Ideal.cmp .oeq s z) z (Ideal.div one s)

theorem guardInv_eq (z one s : EReal) : guardInv z one s = if s = z then z else Ideal.div one s := by
  unfold guardInv Scalar.select
  show (if BitVec.ofBool (decide (s = z)) = 1 then z else Ideal.div one s) = _
  by_cases h : s = z
  · simp [h]
  · simp [h]

/-- The guarded reciprocal of a real number is a real number: 0 at 0, and 1 · (1 / r) at r ≠ 0. -/
theorem isReal_guardInv {s : EReal} (hs : IsReal s) : IsReal (guardInv 0 1 s) := by
  obtain ⟨r, rfl⟩ := hs
  rw [guardInv_eq]
  split
  · exact isReal_zero
  · rename_i h
    have hr : r ≠ 0 := fun e => h (by rw [e]; rfl)
    rw [Ideal.div_coe hr]
    exact isReal_one.mul ⟨1 / r, rfl⟩

/-! ## The loop's contribution -/

variable {N : Type*} [Fintype N] [DecidableEq N]

/-- Row n of the identity matrix sums to one. -/
theorem sum_loop (n : N) : ∑ m : N, (if n = m then (1 : EReal) else 0) = 1 := by
  rw [Finset.sum_ite_eq Finset.univ n (fun _ => (1 : EReal))]
  simp

/-- The looped degree (summed from 0) is the plain degree plus one; no entry has to be finite. -/
theorem loopedDeg_eq (g eye : N → EReal) (n : N) (heye : ∀ m, eye m = if n = m then 1 else 0) :
    (0 : EReal) + ∑ m, (g m + eye m) = (∑ m, g m) + 1 := by
  rw [zero_add, Finset.sum_add_distrib]
  congr 1
  simp only [heye]
  exact sum_loop n

/-- Over the reals: the looped, scaled row against a column is the plain row against the column, plus the node's
    own entry, scaled once. -/
theorem real_loopedRow (g a : N → ℝ) (d : ℝ) (n : N) :
    ∑ m, ((g m + if n = m then 1 else 0) * d) * a m = (∑ m, g m * a m + a n) * d := by
  have h : ∀ m, ((g m + if n = m then 1 else 0) * d) * a m = d * (g m * a m) + d * (if n = m then a m else 0) := by
    intro m
    by_cases e : n = m
    · simp only [e, if_true]; ring
    · simp only [e, if_false]; ring
  simp only [h, Finset.sum_add_distrib, ← Finset.mul_sum, Finset.sum_ite_eq, Finset.mem_univ, if_true]
  ring

/-- The same over the extended reals, for a real-valued row, scale and column. -/
theorem loopedRow (g eye a : N → EReal) (d : EReal) (n : N) (heye : ∀ m, eye m = if n = m then 1 else 0)
    (hg : ∀ m, IsReal (g m)) (hd : IsReal d) (ha : ∀ m, IsReal (a m)) :
    ∑ m, ((g m + eye m) * d) * a m = (∑ m, g m * a m + a n) * d := by
  choose g' hg' using hg
  obtain ⟨d', rfl⟩ := hd
  choose a' ha' using ha
  have he : ∀ m, eye m = (((if n = m then 1 else 0 : ℝ)) : EReal) := fun m => by
    rw [heye]; split <;> simp
  simp only [hg', ha', he, ← EReal.coe_add, ← EReal.coe_mul, ← coe_sum]
  exact congrArg _ (real_loopedRow g' a' d' n)

/-! ## The layers -/

variable {K J : Type*} [Fintype K] [Fintype J]

/-- An affine layer on every node's features: entry (n, j) is (∑ k, u n k · W j k) + β j. -/
def lin (u : N → K → EReal) (W : J → K → EReal) (β : J → EReal) : N → J → EReal :=
  fun n j => (∑ k, u n k * W j k) + β j

/-- The plain degree plus the loop's weight. -/
def deg (one : EReal) (g : N → N → EReal) : N → EReal := fun n => (∑ m, g n m) + one

/-- The degree of the looped weights, summed from z. -/
def loopedDeg (z : EReal) (g eye : N → N → EReal) : N → EReal := fun n => z + ∑ m, (g n m + eye n m)

/-- Aggregate over the original weights, add the node's own feature, scale once, rectify at z. -/
def aggregate (z : EReal) (g : N → N → EReal) (d : N → EReal) (a : N → J → EReal) : N → J → EReal :=
  fun n j => max ((∑ m, g n m * a m j + a n j) * d n) z

/-- Apply the row-scaled looped matrix, rectify at z. -/
def aggregateLooped (z : EReal) (g eye : N → N → EReal) (d : N → EReal) (a : N → J → EReal) : N → J → EReal :=
  fun n j => max (∑ m, ((g n m + eye n m) * d n) * a m j) z

theorem isReal_lin {u : N → K → EReal} {W : J → K → EReal} {β : J → EReal} (hu : ∀ n k, IsReal (u n k))
    (hW : ∀ j k, IsReal (W j k)) (hβ : ∀ j, IsReal (β j)) (n : N) (j : J) : IsReal (lin u W β n j) :=
  (isReal_sum _ _ fun k _ => (hu n k).mul (hW j k)).add (hβ j)

theorem isReal_aggregate {g : N → N → EReal} {d : N → EReal} {a : N → J → EReal} (hg : ∀ n m, IsReal (g n m))
    (hd : ∀ n, IsReal (d n)) (ha : ∀ n j, IsReal (a n j)) (n : N) (j : J) : IsReal (aggregate 0 g d a n j) :=
  IsReal.max (((isReal_sum _ _ fun m _ => (hg n m).mul (ha m j)).add (ha n j)).mul (hd n)) isReal_zero

/-- One layer: the two arrangements agree on real-valued data. -/
theorem aggregateLooped_eq (g eye : N → N → EReal) (d : N → EReal) (a : N → J → EReal)
    (heye : ∀ n m, eye n m = if n = m then 1 else 0) (hg : ∀ n m, IsReal (g n m)) (hd : ∀ n, IsReal (d n))
    (ha : ∀ n j, IsReal (a n j)) : aggregateLooped 0 g eye d a = aggregate 0 g d a := by
  funext n j
  unfold aggregateLooped aggregate
  exact congrArg (max · 0) (loopedRow (g n) (eye n) (fun m => a m j) (d n) n (heye n) (hg n) (hd n) (fun m => ha m j))

/-! ## Two layers -/

variable {C H O : Type*} [Fintype C] [Fintype H] [Fintype O]

/-- affine, aggregate, affine, aggregate — with the N × N matrix never formed. -/
def net (z one : EReal) (x : N → C → EReal) (g : N → N → EReal) (W1 : H → C → EReal) (b1 : H → EReal)
    (W2 : O → H → EReal) (b2 : O → EReal) : N → O → EReal :=
  aggregate z g (fun n => guardInv z one (deg one g n))
    (lin (aggregate z g (fun n => guardInv z one (deg one g n)) (lin x W1 b1)) W2 b2)

/-- The same two layers through the row-normalised looped matrix. -/
def netLooped (z one : EReal) (eye : N → N → EReal) (x : N → C → EReal) (g : N → N → EReal) (W1 : H → C → EReal)
    (b1 : H → EReal) (W2 : O → H → EReal) (b2 : O → EReal) : N → O → EReal :=
  aggregateLooped z g eye (fun n => guardInv z one (loopedDeg z g eye n))
    (lin (aggregateLooped z g eye (fun n => guardInv z one (loopedDeg z g eye n)) (lin x W1 b1)) W2 b2)

/-- On real-valued inputs the two networks are one function. -/
theorem netLooped_eq_net {z one : EReal} (hz : z = 0) (hone : one = 1) (eye : N → N → EReal)
    (heye : ∀ n m, eye n m = if n = m then 1 else 0) (x : N → C → EReal) (g : N → N → EReal) (W1 : H → C → EReal)
    (b1 : H → EReal) (W2 : O → H → EReal) (b2 : O → EReal) (hx : ∀ n c, IsReal (x n c)) (hg : ∀ n m, IsReal (g n m))
    (hW1 : ∀ h c, IsReal (W1 h c)) (hb1 : ∀ h, IsReal (b1 h)) (hW2 : ∀ o h, IsReal (W2 o h)) (hb2 : ∀ o, IsReal (b2 o)) :
    netLooped z one eye x g W1 b1 W2 b2 = net z one x g W1 b1 W2 b2 := by
  subst hz hone
  have hdeg : loopedDeg 0 g eye = deg 1 g := funext fun n => loopedDeg_eq (g n) (eye n) n (heye n)
  unfold netLooped net
  rw [hdeg]
  have hd : ∀ n, IsReal (guardInv 0 1 (deg 1 g n)) := fun n =>
    isReal_guardInv ((isReal_sum _ _ fun m _ => hg n m).add isReal_one)
  have ha : ∀ n h, IsReal (lin x W1 b1 n h) := isReal_lin hx hW1 hb1
  rw [aggregateLooped_eq g eye _ (lin x W1 b1) heye hg hd ha]
  have hh := isReal_aggregate hg hd ha
  have hp : ∀ n o, IsReal (lin (aggregate 0 g (fun n => guardInv 0 1 (deg 1 g n)) (lin x W1 b1)) W2 b2 n o) :=
    isReal_lin hh hW2 hb2
  rw [aggregateLooped_eq g eye _ _ heye hg hd hp]

end Cert.LoopedMean

end
-- ==== Proof.Spec.lean ====
/-
  The function both programs compute, as one function of the six argument arrays.

  x [64, 1024, 16] holds 64 graphs' node features, g [64, 1024, 1024] their weights, and W1 [64, 16], b1 [64],
  W2 [32, 64], b2 [32] are shared.  Entry (b, n, q) of the result is entry (n, q) of the two-layer network
  Cert.LoopedMean.net on graph b alone: nothing of another graph enters it.
-/
import proofs.«120758_j35673998360640_2_alg».proof.Proof.LibLoopedMean
import Idealize.ShloMosaic.Lib.ValueIdx

noncomputable section

namespace Cert.GcnSpec

open Idealize.ShloMosaic Idealize.ShloMosaic.ValueIdx Cert.LoopedMean

/-- The float words of 0.0 and 1.0, as extended reals. -/
abbrev zeroW : EReal := Ideal.ofBits .f32 0x00000000#32
abbrev oneW : EReal := Ideal.ofBits .f32 0x3F800000#32

theorem zeroW_eq : zeroW = 0 := Ideal.ofBits_zero_f32

theorem oneW_eq : oneW = 1 := by
  simp [Ideal.ofBits, Ideal.ieee, -EReal.coe_mul]; norm_num

/-- Entry (b, n, q): the network on graph b, at node n and output feature q. -/
def Gat (x : (⟨3, ![64, 1024, 16]⟩ : Shape).Idx → EReal) (g : (⟨3, ![64, 1024, 1024]⟩ : Shape).Idx → EReal)
    (W1 : (⟨2, ![64, 16]⟩ : Shape).Idx → EReal) (b1 : (⟨1, ![64]⟩ : Shape).Idx → EReal)
    (W2 : (⟨2, ![32, 64]⟩ : Shape).Idx → EReal) (b2 : (⟨1, ![32]⟩ : Shape).Idx → EReal)
    (b : Fin 64) (n : Fin 1024) (q : Fin 32) : EReal :=
  net zeroW oneW (fun (n : Fin 1024) (c : Fin 16) => x (ix3 b n c)) (fun (n m : Fin 1024) => g (ix3 b n m))
    (fun (h : Fin 64) (c : Fin 16) => W1 (ix2 h c)) (fun (h : Fin 64) => b1 (ix1 h))
    (fun (o : Fin 32) (h : Fin 64) => W2 (ix2 o h)) (fun (o : Fin 32) => b2 (ix1 o)) n q

/-- The whole [64, 1024, 32] result. -/
def G (x : (⟨3, ![64, 1024, 16]⟩ : Shape).Idx → EReal) (g : (⟨3, ![64, 1024, 1024]⟩ : Shape).Idx → EReal)
    (W1 : (⟨2, ![64, 16]⟩ : Shape).Idx → EReal) (b1 : (⟨1, ![64]⟩ : Shape).Idx → EReal)
    (W2 : (⟨2, ![32, 64]⟩ : Shape).Idx → EReal) (b2 : (⟨1, ![32]⟩ : Shape).Idx → EReal) :
    (⟨3, ![64, 1024, 32]⟩ : Shape).Idx → EReal :=
  fun i => Gat x g W1 b1 W2 b2 (i 0) (i 1) (i 2)

theorem G_apply (x : (⟨3, ![64, 1024, 16]⟩ : Shape).Idx → EReal) (g : (⟨3, ![64, 1024, 1024]⟩ : Shape).Idx → EReal)
    (W1 : (⟨2, ![64, 16]⟩ : Shape).Idx → EReal) (b1 : (⟨1, ![64]⟩ : Shape).Idx → EReal)
    (W2 : (⟨2, ![32, 64]⟩ : Shape).Idx → EReal) (b2 : (⟨1, ![32]⟩ : Shape).Idx → EReal)
    (b : Fin 64) (n : Fin 1024) (q : Fin 32) : G x g W1 b1 W2 b2 (ix3 b n q) = Gat x g W1 b1 W2 b2 b n q := rfl

end Cert.GcnSpec

end
-- ==== Proof.LibRowsTimesRows.lean ====
/-
  The affine layer `x · Wᵀ + b` over the extended reals, for arrays of any sizes.

  `h` is an `[a, K]` array (one row per sample), `W` a `[b, K]` array (one row of weights per output feature) and
  `β` gives one bias per output feature. `linear h W β` is the `[a, b]` array whose entry `(r, q)` is
  `(∑ k, h[r, k] · W[q, k]) + β q`: row `r` of `h` against row `q` of `W`. Both operands are contracted along
  their SECOND axis, so no transpose is ever formed.

  Two spellings of this array are read here, entry by entry, as `linear`:
  * the device's — both operands narrowed to a smaller float format (the identity on an extended real), multiplied
    into an all-zero accumulator, plus a `[1, b]` bias row broadcast down the `a` rows (`device_apply`);
  * the host's — a `dot_general` of the two operands, plus a `[b]` bias vector first given a unit leading axis and
    then broadcast down the `a` rows (`host_apply`).
  What the dimension numbers of the product have to say is collected in `ContractsRows`: one contracted axis, of
  extent `K`; the left operand read at (row of the result, `k`) and the right operand at (column of the result, `k`).
  No entry has to be finite: only the definitions of the operations on the extended reals are used, and a finite sum
  re-indexed along a bijection.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowsTimesRows

open Idealize.ShloMosaic Idealize.ShloMosaic.ValueIdx
open scoped BigOperators

variable {a K b : ℕ}

/-! ## The layer as one function -/

/-- Entry `(p, q)` of the layer: row `p` of `h` against row `q` of `W`, plus the bias of output feature `q`. -/
def linearAt (h : (⟨2, ![a, K]⟩ : Shape).Idx → EReal) (W : (⟨2, ![b, K]⟩ : Shape).Idx → EReal) (β : Fin b → EReal)
    (p : Fin a) (q : Fin b) : EReal :=
  (∑ k : Fin K, h (ix2 p k) * W (ix2 q k)) + β q

/-- The whole `[a, b]` array `h · Wᵀ + β`. -/
def linear (h : (⟨2, ![a, K]⟩ : Shape).Idx → EReal) (W : (⟨2, ![b, K]⟩ : Shape).Idx → EReal) (β : Fin b → EReal) :
    (⟨2, ![a, b]⟩ : Shape).Idx → EReal :=
  fun i => linearAt h W β (i 0) (i 1)

theorem linear_apply (h : (⟨2, ![a, K]⟩ : Shape).Idx → EReal) (W : (⟨2, ![b, K]⟩ : Shape).Idx → EReal) (β : Fin b → EReal)
    (p : Fin a) (q : Fin b) : linear h W β (ix2 p q) = linearAt h W β p q := rfl

/-! ## The product's dimension numbers -/

/-- The dimension numbers of an `[a, K] × [b, K] → [a, b]` product that contracts the second axis of both operands:
    the contraction ranges over ONE axis, of extent `K`; at entry `j` of the result and contraction index `k` the left
    operand is read at `(j 0, k)` and the right operand at `(j 1, k)`. -/
structure ContractsRows (d : DotDims ⟨2, ![a, K]⟩ ⟨2, ![b, K]⟩ ⟨2, ![a, b]⟩) : Prop where
  rank : d.contr.rank = 1
  size : d.contr.size ⟨0, by omega⟩ = K
  lhs_row : ∀ (j : (⟨2, ![a, b]⟩ : Shape).Idx) (k : d.contr.Idx), (d.lhsIdx j k 0).val = (j 0).val
  lhs_col : ∀ (j : (⟨2, ![a, b]⟩ : Shape).Idx) (k : d.contr.Idx), (d.lhsIdx j k 1).val = (k ⟨0, by omega⟩).val
  rhs_row : ∀ (j : (⟨2, ![a, b]⟩ : Shape).Idx) (k : d.contr.Idx), (d.rhsIdx j k 0).val = (j 1).val
  rhs_col : ∀ (j : (⟨2, ![a, b]⟩ : Shape).Idx) (k : d.contr.Idx), (d.rhsIdx j k 1).val = (k ⟨0, by omega⟩).val

variable {d : DotDims ⟨2, ![a, K]⟩ ⟨2, ![b, K]⟩ ⟨2, ![a, b]⟩}

/-- The sum over the contraction's index set, re-indexed by the contracted position `k < K`: at entry `(p, q)` the
    products are `lhs[p, k] · rhs[q, k]`. -/
theorem ContractsRows.sum_eq (H : ContractsRows d) (lhs : (⟨2, ![a, K]⟩ : Shape).Idx → EReal)
    (rhs : (⟨2, ![b, K]⟩ : Shape).Idx → EReal) (p : Fin a) (q : Fin b) :
    ∑ k : d.contr.Idx, lhs (d.lhsIdx (ix2 p q) k) * rhs (d.rhsIdx (ix2 p q) k)
      = ∑ k : Fin K, lhs (ix2 p k) * rhs (ix2 q k) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun x => Fin.ext (by
    match x with
    | ⟨0, _⟩ => exact H.lhs_row _ _
    | ⟨1, _⟩ => exact (H.lhs_col _ _).trans hk)
  have er : d.rhsIdx (ix2 p q) ((contrEquiv1 d K H.rank H.size).symm k) = ix2 q k := funext fun x => Fin.ext (by
    match x with
    | ⟨0, _⟩ => exact H.rhs_row _ _
    | ⟨1, _⟩ => exact (H.rhs_col _ _).trans hk)
  rw [el, er]

/-! ## The device's spelling -/

/-- Both operands narrowed, multiplied into a zero accumulator, plus a `[1, b]` bias row broadcast down the rows:
    entry `(p, q)` is the layer's, the bias of feature `q` being the row's entry `(0, q)`. Narrowing a float format
    does nothing to an extended real, and the zero accumulator adds nothing. -/
theorem device_apply {φx φw ψx ψw : FTy} (H : ContractsRows d) (prec : Option ContractPrecision)
    (x : FVec Ideal ⟨2, ![a, K]⟩ φx) (w : FVec Ideal ⟨2, ![b, K]⟩ φw) (row : FVec Ideal ⟨2, ![1, b]⟩ .f32)
    (hx : ψx.bits < φx.bits) (hw : ψw.bits < φw.bits)
    (hb : (⟨2, ![1, b]⟩ : Shape).Broadcasts ⟨2, ![a, b]⟩) (p : Fin a) (q : Fin b) :
    addf (matmul d prec (truncf ψx x hx) (truncf ψw w hw) (constant (F := Ideal) ⟨2, ![a, b]⟩ .f32 0x00000000#32))
        (broadcastTo ⟨2, ![a, b]⟩ row hb) (ix2 p q)
      = linearAt x w (fun c => row (ix2 (0 : Fin 1) c)) p q := by
  rw [addf_apply, broadcastTo_1b_ab_apply]
  show FloatOps.matmul d prec (truncf ψx x hx) (truncf ψw w hw) (constant (F := Ideal) ⟨2, ![a, b]⟩ .f32 0x00000000#32) (ix2 p q) + _ = _
  rw [Ideal.matmul_constant_zero_apply, H.sum_eq]
  rfl

/-! ## The host's spelling -/

/-- A `[b]` vector given a unit leading axis and then broadcast down `a` rows reads, at `(p, q)`, the vector at `q`. -/
theorem biasRows_apply {α : Type} (vec : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    broadcastInDim ⟨2, ![a, b]⟩ ![0, 1] h2 (broadcastInDim ⟨2, ![1, b]⟩ ![1] h1 vec) (ix2 p q) = vec (ix1 q) := by
  rw [broadcastInDim_apply ![0, 1] h2 _ (ix2 p q) (ix2 (0 : Fin 1) q) (fun x => by
    match x with
    | ⟨0, _⟩ => rfl
    | ⟨1, _⟩ =>
      show q.val = if b = 1 then 0 else q.val
      split
      · have := q.isLt; omega
      · rfl)]
  exact broadcastInDim_apply ![1] h1 vec (ix2 (0 : Fin 1) q) (ix1 q) (fun x => by
    match x with
    | ⟨0, _⟩ =>
      show q.val = if b = 1 then 0 else q.val
      split
      · have := q.isLt; omega
      · rfl)

/-- The host's product plus the bias vector broadcast down the rows: entry `(p, q)` is the layer's, the bias of
    feature `q` being the vector's entry `q`. -/
theorem host_apply {φx φw : FTy} (H : ContractsRows d) (prec : Option ContractPrecision)
    (x : FVec Ideal ⟨2, ![a, K]⟩ φx) (w : FVec Ideal ⟨2, ![b, K]⟩ φw) (vec : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    addf (Host.dotGeneral d prec x w) (broadcastInDim ⟨2, ![a, b]⟩ ![0, 1] h2 (broadcastInDim ⟨2, ![1, b]⟩ ![1] h1 vec)) (ix2 p q)
      = linearAt x w (fun c => vec (ix1 c)) p q := by
  rw [addf_apply, biasRows_apply]
  show FloatOps.dotGeneral d prec .single x w (ix2 p q) + _ = _
  rw [Ideal.dotGeneral_apply, H.sum_eq]
  rfl

end Cert.RowsTimesRows

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibColumnForms.lean ====
/-
  Two layout operations read at an index given by coordinates, for any extents `a`, `b` and any element type: the
  COLUMN forms that a sum kept as a column (`keepdims` along the last axis) goes through.

  • a vector `[a]` viewed as a column `[a, 1]` reads, at `(i, u)`, the vector at `i` (the unit coordinate `u` is `0`, so
    both indices have row-major position `i`);
  • a column `[a, 1]` broadcast along the second axis to `[a, b]` reads, at `(p, c)`, the column at `(p, 0)`: the
    operand's second axis is a unit axis, so its coordinate is `0` whatever `c` is, and its first axis keeps `p`
    (when `a` itself is `1` the only `p` is `0`).

  The row forms (`[a]` as `[1, a]`, `[1, b]` over `[a, b]`) are the library's `shapeCast_a_1a_apply` and
  `broadcastTo_1b_ab_apply`.
-/
import Idealize.ShloMosaic.Lib.ValueLayout

namespace Cert.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.KernelPoint.lean ====
/-
  What one grid point of the kernel computes, entry by entry.

  A grid point holds one graph: its [1024, 1024] weights g, its [1024, 16] node features x, and the shared
  weights W1 [64, 16], b1 [1, 64], W2 [32, 64], b2 [1, 32].  The body computes
      s n   = ∑ m, g n m                      (a lane sum kept as a column)
      d n   = 0 if s n + 1 = 0, else 1 / (s n + 1)
      a     = x · W1ᵀ + b1
      h n j = max ((∑ m, g n m · a m j + a n j) · d n) 0
      p     = h · W2ᵀ + b2
      o n q = max ((∑ m, g n m · p m q + p n q) · d n) 0
  with every narrowing of a float format the identity on an extended real.  This file reads the body's printed
  operations at an index and finds exactly this function (Cert.LoopedMean.net) of the point's blocks.
-/
import proofs.«120758_j35673998360640_2_alg».proof.Proof.Gen.KernelIdeal.Frame
import proofs.«120758_j35673998360640_2_alg».proof.Proof.LibLoopedMean
import proofs.«120758_j35673998360640_2_alg».proof.Proof.Spec
import proofs.«120758_j35673998360640_2_alg».proof.Proof.LibRowsTimesRows
import proofs.«120758_j35673998360640_2_alg».proof.Proof.LibRowLayers
import proofs.«120758_j35673998360640_2_alg».proof.Proof.LibColumnForms
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Point

open Idealize.ShloMosaic Idealize.ShloMosaic.ValueIdx
open Cert.KernelIdeal Cert.KernelIdeal.Gen
open Cert.LoopedMean Cert.RowsTimesRows Cert.RowLayers Cert.GcnSpec

/-! ## The four products' dimension numbers -/

/-- x · W1ᵀ : [1024, 16] × [64, 16] → [1024, 64], both operands contracted along their second axis. -/
theorem rows1 : ContractsRows (a := 1024) (K := 16) (b := 64) dot_S1024x16_S64x16_S1024x64_1_1_0_0_n_n where
  rank := rfl
  size := rfl
  lhs_row := fun j k => by
    unfold DotDims.lhsIdx
    rw [dif_neg (show ¬(0 : Fin S1024x16.rank) ∈ dot_S1024x16_S64x16_S1024x64_1_1_0_0_n_n.lhsBatch by decide),
      dif_pos (show (0 : Fin S1024x16.rank) ∈ dot_S1024x16_S64x16_S1024x64_1_1_0_0_n_n.lhsNonContracting by decide)]
    rfl
  lhs_col := fun j k => dot_S1024x16_S64x16_S1024x64_1_1_0_0_n_n.lhsIdx_val_of_single rfl j k
  rhs_row := fun j k => by
    unfold DotDims.rhsIdx
    rw [dif_neg (show ¬(0 : Fin S64x16.rank) ∈ dot_S1024x16_S64x16_S1024x64_1_1_0_0_n_n.rhsBatch by decide),
      dif_pos (show (0 : Fin S64x16.rank) ∈ dot_S1024x16_S64x16_S1024x64_1_1_0_0_n_n.rhsNonContracting by decide)]
    rfl
  rhs_col := fun j k => dot_S1024x16_S64x16_S1024x64_1_1_0_0_n_n.rhsIdx_val_of_single rfl j k

/-- h · W2ᵀ : [1024, 64] × [32, 64] → [1024, 32], both operands contracted along their second axis. -/
theorem rows2 : ContractsRows (a := 1024) (K := 64) (b := 32) dot_S1024x64_S32x64_S1024x32_1_1_0_0_n_n where
  rank := rfl
  size := rfl
  lhs_row := fun j k => by
    unfold DotDims.lhsIdx
    rw [dif_neg (show ¬(0 : Fin S1024x64.rank) ∈ dot_S1024x64_S32x64_S1024x32_1_1_0_0_n_n.lhsBatch by decide),
      dif_pos (show (0 : Fin S1024x64.rank) ∈ dot_S1024x64_S32x64_S1024x32_1_1_0_0_n_n.lhsNonContracting by decide)]
    rfl
  lhs_col := fun j k => dot_S1024x64_S32x64_S1024x32_1_1_0_0_n_n.lhsIdx_val_of_single rfl j k
  rhs_row := fun j k => by
    unfold DotDims.rhsIdx
    rw [dif_neg (show ¬(0 : Fin S32x64.rank) ∈ dot_S1024x64_S32x64_S1024x32_1_1_0_0_n_n.rhsBatch by decide),
      dif_pos (show (0 : Fin S32x64.rank) ∈ dot_S1024x64_S32x64_S1024x32_1_1_0_0_n_n.rhsNonContracting by decide)]
    rfl
  rhs_col := fun j k => dot_S1024x64_S32x64_S1024x32_1_1_0_0_n_n.rhsIdx_val_of_single rfl j k

/-- g · a : [1024, 1024] × [1024, 64] → [1024, 64], rows times columns. -/
theorem cols1 : RowsTimesCols (a := 1024) (K := 1024) (b := 64) dot_S1024x1024_S1024x64_S1024x64_1_0_0_1_n_n where
  rank := rfl
  size := rfl
  lhs0 := fun j k => by
    unfold DotDims.lhsIdx
    rw [dif_neg (show ¬(0 : Fin S1024x1024.rank) ∈ dot_S1024x1024_S1024x64_S1024x64_1_0_0_1_n_n.lhsBatch by decide),
      dif_pos (show (0 : Fin S1024x1024.rank) ∈ dot_S1024x1024_S1024x64_S1024x64_1_0_0_1_n_n.lhsNonContracting by decide)]
    rfl
  lhs1 := fun j k => dot_S1024x1024_S1024x64_S1024x64_1_0_0_1_n_n.lhsIdx_val_of_single rfl j k
  rhs0 := fun j k => dot_S1024x1024_S1024x64_S1024x64_1_0_0_1_n_n.rhsIdx_val_of_single rfl j k
  rhs1 := fun j k => by
    unfold DotDims.rhsIdx
    rw [dif_neg (show ¬(1 : Fin S1024x64.rank) ∈ dot_S1024x1024_S1024x64_S1024x64_1_0_0_1_n_n.rhsBatch by decide),
      dif_pos (show (1 : Fin S1024x64.rank) ∈ dot_S1024x1024_S1024x64_S1024x64_1_0_0_1_n_n.rhsNonContracting by decide)]
    rfl

/-- g · p : [1024, 1024] × [1024, 32] → [1024, 32], rows times columns. -/
theorem cols2 : RowsTimesCols (a := 1024) (K := 1024) (b := 32) dot_S1024x1024_S1024x32_S1024x32_1_0_0_1_n_n where
  rank := rfl
  size := rfl
  lhs0 := fun j k => by
    unfold DotDims.lhsIdx
    rw [dif_neg (show ¬(0 : Fin S1024x1024.rank) ∈ dot_S1024x1024_S1024x32_S1024x32_1_0_0_1_n_n.lhsBatch by decide),
      dif_pos (show (0 : Fin S1024x1024.rank) ∈ dot_S1024x1024_S1024x32_S1024x32_1_0_0_1_n_n.lhsNonContracting by decide)]
    rfl
  lhs1 := fun j k => dot_S1024x1024_S1024x32_S1024x32_1_0_0_1_n_n.lhsIdx_val_of_single rfl j k
  rhs0 := fun j k => dot_S1024x1024_S1024x32_S1024x32_1_0_0_1_n_n.rhsIdx_val_of_single rfl j k
  rhs1 := fun j k => by
    unfold DotDims.rhsIdx
    rw [dif_neg (show ¬(1 : Fin S1024x32.rank) ∈ dot_S1024x1024_S1024x32_S1024x32_1_0_0_1_n_n.rhsBatch by decide),
      dif_pos (show (1 : Fin S1024x32.rank) ∈ dot_S1024x1024_S1024x32_S1024x32_1_0_0_1_n_n.rhsNonContracting by decide)]
    rfl

/-! ## One aggregation layer as the device spells it -/

/-- For any number of nodes N and features J: the product of the weights with the (narrowed) features into a zero
    accumulator, plus the features, times the scale column broadcast along the features, rectified at a splat
    scalar — read at (n, j) — is the aggregation layer's entry. -/
theorem aggregate_device {N J : ℕ} {φA ψ : FTy} {d : DotDims ⟨2, ![N, N]⟩ ⟨2, ![N, J]⟩ ⟨2, ![N, J]⟩} (H : RowsTimesCols d)
    (prec : Option ContractPrecision) (A : FVec Ideal ⟨2, ![N, N]⟩ φA) (a : FVec Ideal ⟨2, ![N, J]⟩ .f32)
    (col : FVec Ideal ⟨2, ![N, 1]⟩ .f32) (z : Ideal .f32) (hψ : ψ.bits < FTy.bits .f32)
    (hb : (⟨2, ![N, 1]⟩ : Shape).Broadcasts ⟨2, ![N, J]⟩) (n : Fin N) (j : Fin J) :
    maximumf (mulf (addf (matmul d prec A (truncf ψ a hψ) (constant (F := Ideal) ⟨2, ![N, J]⟩ .f32 0x00000000#32)) a)
        (broadcastTo ⟨2, ![N, J]⟩ col hb)) (broadcast ⟨2, ![N, J]⟩ z) (ix2 n j)
      = aggregate z (fun n m => A (ix2 n m)) (fun n => col (ix2 n (0 : Fin 1))) (fun n j => a (ix2 n j)) n j := by
  show max ((FloatOps.matmul d prec A (truncf ψ a hψ) (constant (F := Ideal) ⟨2, ![N, J]⟩ .f32 0x00000000#32) (ix2 n j) + a (ix2 n j))
      * broadcastTo ⟨2, ![N, J]⟩ col hb (ix2 n j)) z = _
  rw [Ideal.matmul_constant_zero_apply, H.sum_eq, Cert.ColumnForms.broadcastTo_a1_ab_apply]
  rfl

/-! ## The graph's weights, their row sums and the scale column -/

/-- The weights block [1, 1024, 1024] viewed [1024, 1024]. -/
theorem pay2_apply (v0 : FVec Ideal S1x1024x1024 .f32) (n m : Fin 1024) :
    k0_pay2 (F := Ideal) v0 (ix2 n m) = v0 (ix3 (0 : Fin 1) n m) :=
  shapeCast_1ab_ab_apply v0 shapeCasts_S1x1024x1024_S1024x1024 n m

/-- Narrowing the weights does nothing to an extended real. -/
theorem pay4_apply (v0 : FVec Ideal S1x1024x1024 .f32) (n m : Fin 1024) :
    (k0_pay4 (F := Ideal) v0 (ix2 n m) : EReal) = v0 (ix3 (0 : Fin 1) n m) :=
  pay2_apply v0 n m

/-- The lane sum kept as a column: entry (n, 0) is the sum of row n of the weights. -/
theorem rowSum_apply (v0 : FVec Ideal S1x1024x1024 .f32) (n : Fin 1024) :
    shapeCast S1024x1 (multiReduction .add [1] S1024 (k0_pay2 (F := Ideal) v0) 0x00000000#32 reduces_S1024x1024_S1024 (.inl rfl) rfl)
        shapeCasts_S1024_S1024x1 (ix2 n (0 : Fin 1))
      = ∑ m : Fin 1024, v0 (ix3 (0 : Fin 1) n m) := by
  refine (Cert.ColumnForms.shapeCast_a_a1_apply _ shapeCasts_S1024_S1024x1 n 0).trans ?_
  refine (Ideal.multiReduction_add_single (k0_pay2 (F := Ideal) v0) 0x00000000#32 reduces_S1024x1024_S1024 (.inl rfl) rfl (ix1 n)).trans ?_
  refine Finset.sum_congr rfl fun k _ => ?_
  refine (congrArg (k0_pay2 (F := Ideal) v0) (funext fun a => Fin.ext (by
    match a with
    | ⟨0, _⟩ => rfl
    | ⟨1, _⟩ => rfl)) : k0_pay2 (F := Ideal) v0 _ = k0_pay2 (F := Ideal) v0 (ix2 n k)).trans ?_
  exact pay2_apply v0 n k

/-- The scale column: the guarded reciprocal of (row sum + 1). -/
theorem pay3_apply (v0 : FVec Ideal S1x1024x1024 .f32) (n : Fin 1024) :
    (k0_pay3 (F := Ideal) v0 (ix2 n (0 : Fin 1)) : EReal) = guardInv zeroW oneW (deg oneW (fun n m => v0 (ix3 (0 : Fin 1) n m)) n) :=
  congrArg (fun s => guardInv zeroW oneW (s + oneW)) (rowSum_apply v0 n)

/-! ## The layers as the body spells them -/

section Body

variable (v0 : FVec Ideal S1x1024x1024 .f32) (v13 : FVec Ideal S1x1024x16 .f32) (v15 : FVec Ideal S64x16 .f32)
  (v19 : FVec Ideal S1x64 .f32) (v30 : FVec Ideal S32x64 .f32) (v34 : FVec Ideal S1x32 .f32)

/-- The point's graph and weights by coordinates. -/
abbrev wts : Fin 1024 → Fin 1024 → EReal := fun n m => v0 (ix3 (0 : Fin 1) n m)
abbrev feat : Fin 1024 → Fin 16 → EReal := fun n c => v13 (ix3 (0 : Fin 1) n c)
abbrev Wa : Fin 64 → Fin 16 → EReal := fun h c => v15 (ix2 h c)
abbrev Ba : Fin 64 → EReal := fun h => v19 (ix2 (0 : Fin 1) h)
abbrev Wb : Fin 32 → Fin 64 → EReal := fun o h => v30 (ix2 o h)
abbrev Bb : Fin 32 → EReal := fun o => v34 (ix2 (0 : Fin 1) o)
abbrev scale : Fin 1024 → EReal := fun n => guardInv zeroW oneW (deg oneW (wts v0) n)

/-- a = x · W1ᵀ + b1, as printed. -/
def affine1 : FVec Ideal S1024x64 .f32 :=
  addf (matmul dot_S1024x16_S64x16_S1024x64_1_1_0_0_n_n none
      (truncf .bf16 (shapeCast S1024x16 v13 shapeCasts_S1x1024x16_S1024x16) bitsLt_bf16_f32) (truncf .bf16 v15 bitsLt_bf16_f32)
      (constant (F := Ideal) S1024x64 .f32 0x00000000#32))
    (broadcastTo S1024x64 (shapeCast S1x64 v19 shapeCasts_S1x64_S1x64) broadcasts_S1x64_S1024x64)

theorem affine1_apply (m : Fin 1024) (h : Fin 64) :
    affine1 v13 v15 v19 (ix2 m h) = lin (feat v13) (Wa v15) (Ba v19) m h := by
  unfold affine1
  refine (device_apply rows1 none _ _ _ _ _ _ m h).trans ?_
  show (∑ k : Fin 16, _) + _ = (∑ k : Fin 16, feat v13 m k * Wa v15 h k) + Ba v19 h
  refine congrArg₂ (· + ·) (Finset.sum_congr rfl fun k _ => ?_) ?_
  · rw [shapeCast_1ab_ab_apply]
  · exact congrFun (shapeCast_self v19 _) _

/-- h = max ((g · a + a) · d) 0, as printed. -/
def hidden : FVec Ideal S1024x64 .f32 :=
  maximumf (mulf (addf (matmul dot_S1024x1024_S1024x64_S1024x64_1_0_0_1_n_n none (k0_pay4 (F := Ideal) v0)
        (truncf .bf16 (affine1 v13 v15 v19) bitsLt_bf16_f32) (constant (F := Ideal) S1024x64 .f32 0x00000000#32)) (affine1 v13 v15 v19))
      (broadcastTo S1024x64 (k0_pay3 (F := Ideal) v0) broadcasts_S1024x1_S1024x64))
    (broadcast S1024x64 (Scalar.ofBits (F := Ideal) .f32 0x00000000#32))

theorem hidden_apply (n : Fin 1024) (h : Fin 64) :
    hidden v0 v13 v15 v19 (ix2 n h) = aggregate zeroW (wts v0) (scale v0) (lin (feat v13) (Wa v15) (Ba v19)) n h := by
  unfold hidden
  refine (aggregate_device cols1 none _ _ _ _ _ _ n h).trans ?_
  have e1 : (fun (n m : Fin 1024) => (k0_pay4 (F := Ideal) v0 (ix2 n m) : EReal)) = wts v0 :=
    funext fun n => funext fun m => pay4_apply v0 n m
  have e2 : (fun (n : Fin 1024) => (k0_pay3 (F := Ideal) v0 (ix2 n (0 : Fin 1)) : EReal)) = scale v0 :=
    funext fun n => pay3_apply v0 n
  have e3 : (fun (n : Fin 1024) (j : Fin 64) => (affine1 v13 v15 v19 (ix2 n j) : EReal)) = lin (feat v13) (Wa v15) (Ba v19) :=
    funext fun n => funext fun j => affine1_apply v13 v15 v19 n j
  rw [e1, e2, e3]
  rfl

/-- The second product, before its bias: the payload carried out of the first part of the body. -/
theorem pay5_eq : k0_pay5 (F := Ideal) v0 v13 v15 v19 v30
    = matmul dot_S1024x64_S32x64_S1024x32_1_1_0_0_n_n none (truncf .bf16 (hidden v0 v13 v15 v19) bitsLt_bf16_f32)
        (truncf .bf16 v30 bitsLt_bf16_f32) (constant (F := Ideal) S1024x32 .f32 0x00000000#32) := rfl

/-- p = h · W2ᵀ + b2, as printed. -/
def affine2 : FVec Ideal S1024x32 .f32 :=
  addf (k0_pay5 (F := Ideal) v0 v13 v15 v19 v30) (broadcastTo S1024x32 (k0_pay6 (F := Ideal) v34) broadcasts_S1x32_S1024x32)

theorem affine2_apply (m : Fin 1024) (o : Fin 32) :
    affine2 v0 v13 v15 v19 v30 v34 (ix2 m o)
      = lin (aggregate zeroW (wts v0) (scale v0) (lin (feat v13) (Wa v15) (Ba v19))) (Wb v30) (Bb v34) m o := by
  unfold affine2
  rw [pay5_eq]
  refine (device_apply rows2 none _ _ _ _ _ _ m o).trans ?_
  show (∑ k : Fin 64, _) + _
    = (∑ k : Fin 64, aggregate zeroW (wts v0) (scale v0) (lin (feat v13) (Wa v15) (Ba v19)) m k * Wb v30 o k) + Bb v34 o
  refine congrArg₂ (· + ·) (Finset.sum_congr rfl fun k _ => ?_) ?_
  · rw [hidden_apply]
  · exact congrFun (shapeCast_self v34 _) _

/-- o = max ((g · p + p) · d) 0, as printed, before the unit leading axis is put back. -/
def outRows : FVec Ideal S1024x32 .f32 :=
  maximumf (mulf (addf (matmul dot_S1024x1024_S1024x32_S1024x32_1_0_0_1_n_n none (k0_pay4 (F := Ideal) v0)
        (truncf .bf16 (affine2 v0 v13 v15 v19 v30 v34) bitsLt_bf16_f32) (constant (F := Ideal) S1024x32 .f32 0x00000000#32))
        (affine2 v0 v13 v15 v19 v30 v34))
      (broadcastTo S1024x32 (k0_pay3 (F := Ideal) v0) broadcasts_S1024x1_S1024x32))
    (broadcast S1024x32 (Scalar.ofBits (F := Ideal) .f32 0x00000000#32))

theorem outRows_apply (n : Fin 1024) (o : Fin 32) :
    outRows v0 v13 v15 v19 v30 v34 (ix2 n o) = net zeroW oneW (feat v13) (wts v0) (Wa v15) (Ba v19) (Wb v30) (Bb v34) n o := by
  unfold outRows
  refine (aggregate_device cols2 none _ _ _ _ _ _ n o).trans ?_
  have e1 : (fun (n m : Fin 1024) => (k0_pay4 (F := Ideal) v0 (ix2 n m) : EReal)) = wts v0 :=
    funext fun n => funext fun m => pay4_apply v0 n m
  have e2 : (fun (n : Fin 1024) => (k0_pay3 (F := Ideal) v0 (ix2 n (0 : Fin 1)) : EReal)) = scale v0 :=
    funext fun n => pay3_apply v0 n
  have e3 : (fun (n : Fin 1024) (j : Fin 32) => (affine2 v0 v13 v15 v19 v30 v34 (ix2 n j) : EReal))
      = lin (aggregate zeroW (wts v0) (scale v0) (lin (feat v13) (Wa v15) (Ba v19))) (Wb v30) (Bb v34) :=
    funext fun n => funext fun j => affine2_apply v0 v13 v15 v19 v30 v34 n j
  rw [e1, e2, e3]
  rfl

/-- The stored value is those rows under a unit leading axis. -/
theorem pay1_eq : k0_pay1 (F := Ideal) (k0_pay3 v0) (k0_pay4 v0) (k0_pay5 v0 v13 v15 v19 v30) (k0_pay6 v34)
    = shapeCast S1x1024x32 (outRows v0 v13 v15 v19 v30 v34) shapeCasts_S1024x32_S1x1024x32 := rfl

end Body

/-! ## What a grid point leaves in the output's staging buffer -/

theorem hz3 : (![0, 0, 0] : Fin 3 → Nat) = fun _ => 0 := funext fun a => by fin_cases a <;> rfl
theorem hz2 : (![0, 0] : Fin 2 → Nat) = fun _ => 0 := funext fun a => by fin_cases a <;> rfl

/-- Entry (0, n, q) of the point's output block is the network on the point's blocks. -/
theorem out_apply (x0 : Vec Ideal S1x1024x16 .f32) (x1 : Vec Ideal S1x1024x1024 .f32) (x2 : Vec Ideal S64x16 .f32)
    (x3 : Vec Ideal S1x64 .f32) (x4 : Vec Ideal S32x64 .f32) (x5 : Vec Ideal S1x32 .f32) (n : Fin 1024) (q : Fin 32) :
    out0_6 (F := Ideal) x0 x1 x2 x3 x4 x5 (ix3 (0 : Fin 1) n q)
      = net zeroW oneW (feat x0) (wts x1) (Wa x2) (Ba x3) (Wb x4) (Bb x5) n q := by
  unfold out0_6
  rw [View.canon_unit_zero hz3]
  simp only [View.ld_unit_zero (S := S1x1024x1024) hz3, View.ld_unit_zero (S := S1x1024x16) hz3,
    View.ld_unit_zero (S := S64x16) hz2, View.ld_unit_zero (S := S1x64) hz2, View.ld_unit_zero (S := S32x64) hz2,
    View.ld_unit_zero (S := S1x32) hz2]
  rw [pay1_eq, shapeCast_ab_1ab_apply]
  exact outRows_apply x1 x0 x2 x3 x4 x5 n q

end Cert.KernelIdeal.Point

end
-- ==== Proof.KernelWhole.lean ====
/-
  From the 64 grid points to the whole result array.

  Point t stages graph t: rows t of the features and of the weights, the shared W1 and W2 whole, and the two biases
  as the [1, 64] and [1, 32] rows the host lines before the call made of them.  It writes back block t of the
  [64, 1024, 32] result.  So what point t writes is block t of the specification G of the argument arrays, the 64
  blocks tile the result, and the result array after the run is G.
-/
import proofs.«120758_j35673998360640_2_alg».proof.Proof.Gen.KernelIdeal.Value
import proofs.«120758_j35673998360640_2_alg».proof.Proof.KernelPoint
import proofs.«120758_j35673998360640_2_alg».proof.Proof.Spec
import Idealize.ShloMosaic.Lib.Pipeline.Value
import Idealize.ShloMosaic.Lib.StableHlo.Run
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.GcnSpec Cert.LoopedMean

variable (m : (ℓ : Loc nD τ sig) → Buf (Elt Ideal) ℓ) (ρ : Dev nD → PrngReg)

/-! ## The two bias rows the host lines make -/

theorem V_bias1 (c : Dev nD) : (V m c main_v0 : S1x64.Idx → EReal)
    = shapeCast S1x64 (m ((c : Thread nD τ).loc main_arg3) : S64.Idx → EReal) shapeCasts_S64_S1x64 := by
  dsimp only [Gen.V, Gen.hostOps0]
  after_results
  rfl

theorem V_bias2 (c : Dev nD) : (V m c main_v1 : S1x32.Idx → EReal)
    = shapeCast S1x32 (m ((c : Thread nD τ).loc main_arg5) : S32.Idx → EReal) shapeCasts_S32_S1x32 := by
  dsimp only [Gen.V, Gen.hostOps0]
  after_results
  rfl

/-! ## Where each window's block sits at point t -/

/-- The printed index maps over the 64 points: the per-graph windows sit at block (t, 0, 0), the shared ones at (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-! ## The input blocks at point t, by coordinates -/

theorem feat_block (c : Dev nD) (t : Fin cfg0.N) (ht : t.val < 64) (n : Fin 1024) (k : Fin 16) :
    (iblk m c 0 t : Vec Ideal S1x1024x16 .f32) (ix3 (0 : Fin 1) n k)
      = (m ((c : Thread nD τ).loc main_arg0) : S64x1024x16.Idx → EReal) (ix3 (⟨t.val, ht⟩ : Fin 64) n k) := by
  obtain ⟨e0, e1, e2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 16 + 1 * k.val = k.val; omega

theorem wts_block (c : Dev nD) (t : Fin cfg0.N) (ht : t.val < 64) (n k : Fin 1024) :
    (iblk m c 1 t : Vec Ideal S1x1024x1024 .f32) (ix3 (0 : Fin 1) n k)
      = (m ((c : Thread nD τ).loc main_arg1) : S64x1024x1024.Idx → EReal) (ix3 (⟨t.val, ht⟩ : Fin 64) n k) := by
  obtain ⟨-, -, -, e0, e1, e2, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 3) * 1 + 1 * 0 = t.val; omega
  | ⟨1, _⟩ => show win0_1.index t (1 : Fin 3) * 1024 + 1 * n.val = n.val; omega
  | ⟨2, _⟩ => show win0_1.index t (2 : Fin 3) * 1024 + 1 * k.val = k.val; omega

theorem W1_block (c : Dev nD) (t : Fin cfg0.N) (h : Fin 64) (k : Fin 16) :
    (iblk m c 2 t : Vec Ideal S64x16 .f32) (ix2 h k)
      = (m ((c : Thread nD τ).loc main_arg2) : S64x16.Idx → EReal) (ix2 h k) := by
  obtain ⟨-, -, -, -, -, -, e0, e1, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 2) * 64 + 1 * h.val = h.val; omega
  | ⟨1, _⟩ => show win0_2.index t (1 : Fin 2) * 16 + 1 * k.val = k.val; omega

theorem b1_block (c : Dev nD) (t : Fin cfg0.N) (h : Fin 64) :
    (iblk m c 3 t : Vec Ideal S1x64 .f32) (ix2 (0 : Fin 1) h)
      = (m ((c : Thread nD τ).loc main_arg3) : S64.Idx → EReal) (ix1 h) := by
  obtain ⟨-, -, -, -, -, -, -, -, e0, e1, -⟩ := idx_facts t
  unfold iblk
  rw [View.read_apply]
  show V m c main_v0 _ = _
  rw [V_bias1]
  refine Eq.trans (congrArg _ (funext fun a => Fin.ext ?_)) (shapeCast_a_1a_apply _ shapeCasts_S64_S1x64 (0 : Fin 1) h)
  match a with
  | ⟨0, _⟩ => show win0_3.index t (0 : Fin 2) * 1 + 1 * 0 = 0; omega
  | ⟨1, _⟩ => show win0_3.index t (1 : Fin 2) * 64 + 1 * h.val = h.val; omega

theorem W2_block (c : Dev nD) (t : Fin cfg0.N) (o : Fin 32) (h : Fin 64) :
    (iblk m c 4 t : Vec Ideal S32x64 .f32) (ix2 o h)
      = (m ((c : Thread nD τ).loc main_arg4) : S32x64.Idx → EReal) (ix2 o h) := by
  obtain ⟨-, -, -, -, -, -, -, -, -, -, e0, e1, -⟩ := idx_facts t
  unfold iblk
  rw [View.read_apply]
  show V m c main_arg4 _ = _
  rw [V_main_arg4]
  refine congrArg _ (funext fun a => Fin.ext ?_)
  match a with
  | ⟨0, _⟩ => show win0_4.index t (0 : Fin 2) * 32 + 1 * o.val = o.val; omega
  | ⟨1, _⟩ => show win0_4.index t (1 : Fin 2) * 64 + 1 * h.val = h.val; omega

theorem b2_block (c : Dev nD) (t : Fin cfg0.N) (o : Fin 32) :
    (iblk m c 5 t : Vec Ideal S1x32 .f32) (ix2 (0 : Fin 1) o)
      = (m ((c : Thread nD τ).loc main_arg5) : S32.Idx → EReal) (ix1 o) := by
  obtain ⟨-, -, -, -, -, -, -, -, -, -, -, -, e0, e1, -⟩ := idx_facts t
  unfold iblk
  rw [View.read_apply]
  show V m c main_v1 _ = _
  rw [V_bias2]
  refine Eq.trans (congrArg _ (funext fun a => Fin.ext ?_)) (shapeCast_a_1a_apply _ shapeCasts_S32_S1x32 (0 : Fin 1) o)
  match a with
  | ⟨0, _⟩ => show win0_5.index t (0 : Fin 2) * 1 + 1 * 0 = 0; omega
  | ⟨1, _⟩ => show win0_5.index t (1 : Fin 2) * 32 + 1 * o.val = o.val; omega

/-! ## What point t writes back -/

/-- The specification of the six argument arrays as launched. -/
abbrev spec (c : Dev nD) : S64x1024x32.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Entry (0, n, q) of what point t computes is entry (t, n, q) of the specification. -/
theorem point_eq (c : Dev nD) (t : Fin cfg0.N) (ht : t.val < 64) (n : Fin 1024) (q : Fin 32) :
    out0_6 (F := Ideal) (iblk m c 0 t) (iblk m c 1 t) (iblk m c 2 t) (iblk m c 3 t) (iblk m c 4 t) (iblk m c 5 t)
        (ix3 (0 : Fin 1) n q)
      = spec m c (ix3 (⟨t.val, ht⟩ : Fin 64) n q) := by
  refine (Cert.KernelIdeal.Point.out_apply (iblk m c 0 t) (iblk m c 1 t) (iblk m c 2 t) (iblk m c 3 t) (iblk m c 4 t)
    (iblk m c 5 t) n q).trans ?_
  have e0 : Cert.KernelIdeal.Point.feat (iblk m c 0 t)
      = fun (n : Fin 1024) (k : Fin 16) => (m ((c : Thread nD τ).loc main_arg0) : S64x1024x16.Idx → EReal) (ix3 (⟨t.val, ht⟩ : Fin 64) n k) :=
    funext fun n => funext fun k => feat_block m c t ht n k
  have e1 : Cert.KernelIdeal.Point.wts (iblk m c 1 t)
      = fun (n k : Fin 1024) => (m ((c : Thread nD τ).loc main_arg1) : S64x1024x1024.Idx → EReal) (ix3 (⟨t.val, ht⟩ : Fin 64) n k) :=
    funext fun n => funext fun k => wts_block m c t ht n k
  have e2 : Cert.KernelIdeal.Point.Wa (iblk m c 2 t)
      = fun (h : Fin 64) (k : Fin 16) => (m ((c : Thread nD τ).loc main_arg2) : S64x16.Idx → EReal) (ix2 h k) :=
    funext fun h => funext fun k => W1_block m c t h k
  have e3 : Cert.KernelIdeal.Point.Ba (iblk m c 3 t)
      = fun (h : Fin 64) => (m ((c : Thread nD τ).loc main_arg3) : S64.Idx → EReal) (ix1 h) :=
    funext fun h => b1_block m c t h
  have e4 : Cert.KernelIdeal.Point.Wb (iblk m c 4 t)
      = fun (o : Fin 32) (h : Fin 64) => (m ((c : Thread nD τ).loc main_arg4) : S32x64.Idx → EReal) (ix2 o h) :=
    funext fun o => funext fun h => W2_block m c t o h
  have e5 : Cert.KernelIdeal.Point.Bb (iblk m c 5 t)
      = fun (o : Fin 32) => (m ((c : Thread nD τ).loc main_arg5) : S32.Idx → EReal) (ix1 o) :=
    funext fun o => b2_block m c t o
  rw [e0, e1, e2, e3, e4, e5]
  rfl

/-- WHAT POINT t WRITES BACK is block t of the specification. -/
theorem flushed_eq (c : Dev nD) (t : Fin cfg0.N) :
    (dats m 0 c).flushed 6 t = ((cfg0.win 6).blk t).view.read (Elt Ideal) (spec m c) := by
  have hN : cfg0.N = 64 := N_0
  have ht : t.val < 64 := hN ▸ t.isLt
  obtain ⟨-, -, -, -, -, -, -, -, -, -, -, -, -, -, e0, e1, e2⟩ := idx_facts t
  rw [Cert.KernelIdeal.Value.flushed6]
  funext j
  obtain ⟨u, n, q, rfl⟩ : ∃ (u : Fin 1) (n : Fin 1024) (q : Fin 32), j = ix3 u n q := ⟨j 0, j 1, j 2, eq_ix3 j⟩
  obtain rfl : u = 0 := Fin.ext (by omega)
  rw [View.read_apply]
  refine (point_eq m c t ht n q).trans (congrArg (spec m c) (funext fun a => Fin.ext ?_))
  match a with
  | ⟨0, _⟩ => show t.val = win0_6.index t (0 : Fin 3) * 1 + 1 * 0; omega
  | ⟨1, _⟩ => show n.val = win0_6.index t (1 : Fin 3) * 1024 + 1 * n.val; omega
  | ⟨2, _⟩ => show q.val = win0_6.index t (2 : Fin 3) * 32 + 1 * q.val; omega

/-! ## The blocks tile the result -/

theorem mem_blk (t : Fin cfg0.N) (i : S64x1024x32.Idx) :
    i ∈ ((cfg0.win 6).blk t).view.set
      ↔ ∀ a : Fin 3, win0_6.index t a * S1x1024x32.size a ≤ (i a).val ∧ (i a).val < win0_6.index t a * S1x1024x32.size a + S1x1024x32.size a := by
  show i ∈ ((View.whole main_v2).slice (win0_6.rect t)).set ↔ _
  rw [View.set_slice_whole, Rect.mem_set_unit]
  exact Iff.rfl

/-- Index (b, n, q) lies in point b's block. -/
theorem cover (i : S64x1024x32.Idx) : ∃ t : Fin cfg0.N, (cfg0.win 6).flush t = true ∧ i ∈ ((cfg0.win 6).blk t).view.set := by
  have hN : cfg0.N = 64 := N_0
  have hi0 : (i 0).val < 64 := (i 0).isLt
  have hi1 : (i 1).val < 1024 := (i 1).isLt
  have hi2 : (i 2).val < 32 := (i 2).isLt
  have hlt : (i 0).val < cfg0.N := hN ▸ hi0
  obtain ⟨-, -, -, -, -, -, -, -, -, -, -, -, -, -, e0, e1, e2⟩ := idx_facts ⟨(i 0).val, hlt⟩
  have e0' : win0_6.index ⟨(i 0).val, hlt⟩ (0 : Fin 3) = (i 0).val := e0
  refine ⟨⟨(i 0).val, hlt⟩, flush0_6 _, ?_⟩
  rw [mem_blk]
  intro a
  match a with
  | ⟨0, _⟩ =>
    show win0_6.index ⟨(i 0).val, hlt⟩ (0 : Fin 3) * 1 ≤ (i 0).val ∧ (i 0).val < win0_6.index ⟨(i 0).val, hlt⟩ (0 : Fin 3) * 1 + 1
    rw [e0']; omega
  | ⟨1, _⟩ =>
    show win0_6.index ⟨(i 0).val, hlt⟩ (1 : Fin 3) * 1024 ≤ (i 1).val ∧ (i 1).val < win0_6.index ⟨(i 0).val, hlt⟩ (1 : Fin 3) * 1024 + 1024
    rw [e1]; omega
  | ⟨2, _⟩ =>
    show win0_6.index ⟨(i 0).val, hlt⟩ (2 : Fin 3) * 32 ≤ (i 2).val ∧ (i 2).val < win0_6.index ⟨(i 0).val, hlt⟩ (2 : Fin 3) * 32 + 32
    rw [e2]; omega

/-- THE RESULT ARRAY after the run is the specification of the argument arrays. -/
theorem final (c : Dev nD) : (dats m 0 c).arrAt 6 cfg0.N = spec m c :=
  (dats m 0 c).arrAt_eq_of_cover 6 (spec m c) (fun t _ => flushed_eq m c t) cover

/-! ## The run, read -/

theorem run : θ_run defs (onTc (τ := τ) (main (F := Ideal))) ⟨m, fun _ => 0, ρ⟩ fun r => ∀ c : Dev nD,
      r.2.mem ((c : Thread nD τ).loc main_v2) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Whole

end
-- ==== Proof.RefWhole.lean ====
/-
  The reference's result, entry by entry.

  The reference adds the identity matrix to every graph's weights, sums each row of the looped weights for the
  degree, takes the guarded reciprocal, scales every row by it, and applies the resulting [1024, 1024] matrix
  (a batched product) to the affine image of the node features — twice, each time followed by a rectifier.
  Read at (b, n, q), each stage involves graph b alone, and the whole is the network through the row-normalised
  looped matrix (Cert.LoopedMean.netLooped) on graph b.  For real-valued inputs that network is the one that never
  forms the matrix, which is the shared specification G.
-/
import proofs.«120758_j35673998360640_2_alg».proof.Proof.Gen.ReferenceIdeal.Read
import proofs.«120758_j35673998360640_2_alg».proof.Proof.Spec
import Idealize.ShloMosaic.Lib.ValueIdx
import Idealize.ShloMosaic.Lib.Affine
import Idealize.ShloMosaic.PureOps.Ideal.Laws

noncomputable section

open scoped BigOperators

namespace Cert.ReferenceIdeal.Whole

open Idealize.ShloMosaic Idealize.ShloMosaic.ValueIdx
open Cert.ReferenceIdeal Cert.ReferenceIdeal.Read
open Cert.LoopedMean Cert.GcnSpec Cert.DenseEdges

/-! ## The identity matrix as the program forms it -/

/-- Entry (n, m): the row number (plus zero) compared with the column number, as 32-bit words, the one-bit answer
    read as a number. -/
def eyeW (n m : Fin 1024) : EReal :=
  FloatOps.uitofp (F := Ideal) .f32 (IntOp.cmpi .eq (IntOp.addi (BitVec.ofNat 32 n.val) 0#32) (BitVec.ofNat 32 m.val))

/-- It is 1 on the diagonal and 0 off it: numbers below 1024 are distinct as 32-bit words. -/
theorem eyeW_eq (n m : Fin 1024) : eyeW n m = if n = m then 1 else 0 := by
  unfold eyeW
  show (((IntOp.cmpi .eq (IntOp.addi (BitVec.ofNat 32 n.val) 0#32) (BitVec.ofNat 32 m.val)).toNat : ℝ) : EReal) = _
  have hadd : IntOp.addi (BitVec.ofNat 32 n.val) 0#32 = BitVec.ofNat 32 n.val := BitVec.add_zero _
  rw [hadd]
  by_cases h : n = m
  · subst h
    rw [if_pos rfl, (IntOp.cmpi_eq).2 rfl]
    simp
  · have hne : BitVec.ofNat 32 n.val ≠ BitVec.ofNat 32 m.val := by
      intro e
      have e' := congrArg BitVec.toNat e
      simp only [BitVec.toNat_ofNat] at e'
      have hn := n.isLt
      have hm := m.isLt
      rw [Nat.mod_eq_of_lt (by omega), Nat.mod_eq_of_lt (by omega)] at e'
      exact h (Fin.ext e')
    have hc : IntOp.cmpi .eq (BitVec.ofNat 32 n.val) (BitVec.ofNat 32 m.val) = 0#1 := by
      rcases BitVec.eq_zero_or_eq_one (IntOp.cmpi .eq (BitVec.ofNat 32 n.val) (BitVec.ofNat 32 m.val)) with h0 | h1
      · exact h0
      · exact absurd ((IntOp.cmpi_eq).1 h1) hne
    rw [if_neg h, hc]
    simp

/-! ## Graph b's pieces of the arguments -/

variable (x0 : (⟨S64x1024x16, .f32⟩ : BufTy).Contents (Elt Ideal)) (x1 : (⟨S64x1024x1024, .f32⟩ : BufTy).Contents (Elt Ideal))
  (x2 : (⟨S64x16, .f32⟩ : BufTy).Contents (Elt Ideal)) (x3 : (⟨S64, .f32⟩ : BufTy).Contents (Elt Ideal))
  (x4 : (⟨S32x64, .f32⟩ : BufTy).Contents (Elt Ideal)) (x5 : (⟨S32, .f32⟩ : BufTy).Contents (Elt Ideal))

abbrev feat (b : Fin 64) : Fin 1024 → Fin 16 → EReal := fun n c => x0 (ix3 b n c)
abbrev wts (b : Fin 64) : Fin 1024 → Fin 1024 → EReal := fun n m => x1 (ix3 b n m)
abbrev Wa : Fin 64 → Fin 16 → EReal := fun h c => x2 (ix2 h c)
abbrev Ba : Fin 64 → EReal := fun h => x3 (ix1 h)
abbrev Wb : Fin 32 → Fin 64 → EReal := fun o h => x4 (ix2 o h)
abbrev Bb : Fin 32 → EReal := fun o => x5 (ix1 o)
/-- The guarded reciprocal of node n's looped degree in graph b. -/
abbrev scale (b : Fin 64) : Fin 1024 → EReal := fun n => guardInv zeroW oneW (loopedDeg zeroW (wts x1 b) eyeW n)

/-! ## The stages at coordinates -/

theorem eye_apply (b : Fin 64) (n m : Fin 1024) : val_main_v7 (F := Ideal) (ix3 b n m) = eyeW n m := by
  rw [val_main_v7_apply, val_main_v6_apply, val_main_v5_apply, val_main_v4_apply, val_main_v3_apply, val_main_v0_apply,
    val_main_v2_apply, val_main_c_apply, val_main_v1_apply]
  rfl

theorem looped_apply (b : Fin 64) (n m : Fin 1024) :
    val_main_v8 (F := Ideal) x1 (ix3 b n m) = wts x1 b n m + eyeW n m := by
  rw [val_main_v8_apply, eye_apply]
  rfl

theorem deg_apply (b : Fin 64) (n : Fin 1024) :
    val_main_v9 (F := Ideal) x1 (ix2 b n) = loopedDeg zeroW (wts x1 b) eyeW n := by
  rw [val_main_v9_apply]
  show _ + (∑ k : Fin 1024, _) = zeroW + ∑ m : Fin 1024, (wts x1 b n m + eyeW n m)
  refine congrArg₂ (· + ·) rfl (Finset.sum_congr rfl fun k _ => ?_)
  have e : idx_main_v9 (ix2 b n) k = ix3 b n k := funext fun a => Fin.ext (by
    match a with
    | ⟨0, _⟩ => rfl
    | ⟨1, _⟩ => rfl
    | ⟨2, _⟩ => rfl)
  rw [e, looped_apply]

theorem scale_apply (b : Fin 64) (n : Fin 1024) : val_main_v15 (F := Ideal) x1 (ix2 b n) = scale x1 b n := by
  rw [val_main_v15_apply, val_main_v11_apply, val_main_v14_apply, deg_apply, val_main_v10_apply, val_main_v12_apply,
    val_main_v13_apply]
  rfl

theorem normed_apply (b : Fin 64) (n m : Fin 1024) :
    val_main_v18 (F := Ideal) x1 (ix3 b n m) = (wts x1 b n m + eyeW n m) * scale x1 b n := by
  rw [val_main_v18_apply, looped_apply, val_main_v17_apply, val_main_v16_apply]
  have e : idx_main_v16 (idx_main_v17 (ix3 b n m)) = ix2 b n := funext fun a => Fin.ext (by
    match a with
    | ⟨0, _⟩ => rfl
    | ⟨1, _⟩ => rfl)
  rw [e, scale_apply]
  rfl

theorem lin1_apply (b : Fin 64) (m : Fin 1024) (h : Fin 64) :
    val_main_v22 (F := Ideal) x0 x2 x3 (ix3 b m h) = lin (feat x0 b) (Wa x2) (Ba x3) m h := by
  rw [val_main_v22_apply, val_main_v19_apply, val_main_v21_apply, val_main_v20_apply]
  show (∑ k : Fin 16, _) + _ = (∑ k : Fin 16, feat x0 b m k * Wa x2 h k) + Ba x3 h
  refine congrArg₂ (· + ·) (Finset.sum_congr rfl fun k _ => ?_) ?_
  · have el : lidx_main_v19 (ix3 b m h) k = ix3 b m k := funext fun a => Fin.ext (by
      match a with
      | ⟨0, _⟩ => rfl
      | ⟨1, _⟩ => rfl
      | ⟨2, _⟩ => rfl)
    have er : ridx_main_v19 (ix3 b m h) k = ix2 h k := funext fun a => Fin.ext (by
      match a with
      | ⟨0, _⟩ => rfl
      | ⟨1, _⟩ => rfl)
    rw [el, er]
  · exact congrArg x3 (funext fun a => Fin.ext (by
      match a with
      | ⟨0, _⟩ => rfl))

theorem hid_apply (b : Fin 64) (n : Fin 1024) (h : Fin 64) :
    val_main_v24 (F := Ideal) x0 x1 x2 x3 (ix3 b n h)
      = aggregateLooped zeroW (wts x1 b) eyeW (scale x1 b) (lin (feat x0 b) (Wa x2) (Ba x3)) n h := by
  rw [val_main_v24_apply, val_main_v23_apply, val_main_call1_v0_apply, val_main_call1_cst_apply]
  show max (∑ k : Fin 1024, _) _
    = max (∑ m : Fin 1024, ((wts x1 b n m + eyeW n m) * scale x1 b n) * lin (feat x0 b) (Wa x2) (Ba x3) m h) zeroW
  refine congrArg₂ max (Finset.sum_congr rfl fun k _ => ?_) rfl
  have el : lidx_main_v23 (ix3 b n h) k = ix3 b n k := funext fun a => Fin.ext (by
    match a with
    | ⟨0, _⟩ => rfl
    | ⟨1, _⟩ => rfl
    | ⟨2, _⟩ => rfl)
  have er : ridx_main_v23 (ix3 b n h) k = ix3 b k h := funext fun a => Fin.ext (by
    match a with
    | ⟨0, _⟩ => rfl
    | ⟨1, _⟩ => rfl
    | ⟨2, _⟩ => rfl)
  rw [el, er, normed_apply, lin1_apply]

theorem lin2_apply (b : Fin 64) (m : Fin 1024) (o : Fin 32) :
    val_main_v28 (F := Ideal) x0 x1 x2 x3 x4 x5 (ix3 b m o)
      = lin (aggregateLooped zeroW (wts x1 b) eyeW (scale x1 b) (lin (feat x0 b) (Wa x2) (Ba x3))) (Wb x4) (Bb x5) m o := by
  rw [val_main_v28_apply, val_main_v25_apply, val_main_v27_apply, val_main_v26_apply]
  show (∑ k : Fin 64, _) + _
    = (∑ k : Fin 64, aggregateLooped zeroW (wts x1 b) eyeW (scale x1 b) (lin (feat x0 b) (Wa x2) (Ba x3)) m k * Wb x4 o k)
        + Bb x5 o
  refine congrArg₂ (· + ·) (Finset.sum_congr rfl fun k _ => ?_) ?_
  · have el : lidx_main_v25 (ix3 b m o) k = ix3 b m k := funext fun a => Fin.ext (by
      match a with
      | ⟨0, _⟩ => rfl
      | ⟨1, _⟩ => rfl
      | ⟨2, _⟩ => rfl)
    have er : ridx_main_v25 (ix3 b m o) k = ix2 o k := funext fun a => Fin.ext (by
      match a with
      | ⟨0, _⟩ => rfl
      | ⟨1, _⟩ => rfl)
    rw [el, er, hid_apply]
  · exact congrArg x5 (funext fun a => Fin.ext (by
      match a with
      | ⟨0, _⟩ => rfl))

/-- The reference's result at (b, n, o): the network through the row-normalised looped matrix, on graph b. -/
theorem out_apply (b : Fin 64) (n : Fin 1024) (o : Fin 32) :
    val_main_v30 (F := Ideal) x0 x1 x2 x3 x4 x5 (ix3 b n o)
      = netLooped zeroW oneW eyeW (feat x0 b) (wts x1 b) (Wa x2) (Ba x3) (Wb x4) (Bb x5) n o := by
  rw [val_main_v30_apply, val_main_v29_apply, val_main_call2_v0_apply, val_main_call2_cst_apply]
  show max (∑ k : Fin 1024, _) _
    = max (∑ m : Fin 1024, ((wts x1 b n m + eyeW n m) * scale x1 b n)
        * lin (aggregateLooped zeroW (wts x1 b) eyeW (scale x1 b) (lin (feat x0 b) (Wa x2) (Ba x3))) (Wb x4) (Bb x5) m o) zeroW
  refine congrArg₂ max (Finset.sum_congr rfl fun k _ => ?_) rfl
  have el : lidx_main_v29 (ix3 b n o) k = ix3 b n k := funext fun a => Fin.ext (by
    match a with
    | ⟨0, _⟩ => rfl
    | ⟨1, _⟩ => rfl
    | ⟨2, _⟩ => rfl)
  have er : ridx_main_v29 (ix3 b n o) k = ix3 b k o := funext fun a => Fin.ext (by
    match a with
    | ⟨0, _⟩ => rfl
    | ⟨1, _⟩ => rfl
    | ⟨2, _⟩ => rfl)
  rw [el, er, normed_apply, lin2_apply]

/-! ## The reference computes the specification on real-valued inputs -/

theorem ref_eq_G (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) :
    val_main_v30 (F := Ideal) x0 x1 x2 x3 x4 x5 = G x0 x1 x2 x3 x4 x5 := by
  funext i
  obtain ⟨b, n, o, rfl⟩ : ∃ (b : Fin 64) (n : Fin 1024) (o : Fin 32), i = ix3 b n o := ⟨i 0, i 1, i 2, eq_ix3 i⟩
  rw [out_apply, G_apply]
  unfold Gat
  exact congrFun (congrFun (netLooped_eq_net zeroW_eq oneW_eq eyeW eyeW_eq (feat x0 b) (wts x1 b) (Wa x2) (Ba x3) (Wb x4)
    (Bb x5) (fun n c => h0 _) (fun n m => h1 _) (fun h c => h2 _) (fun h => h3 _) (fun o h => h4 _) (fun o => h5 _)) n) o

end Cert.ReferenceIdeal.Whole

end
-- ==== Proof.FiniteInputs.lean ====
/-
  From the precondition to "every entry of every input is a real number".

  The precondition is the conjunction, over the six inputs, of "every entry x satisfies |x| < +∞".  On the
  extended reals |x| is max x (−x), which is +∞ exactly at the two infinities; so each conjunct says that no
  entry of that input is an infinity, that is, every entry is a real number.
-/
import proofs.«120758_j35673998360640_2_alg».proof.Pre_finite_inputs
import proofs.«120758_j35673998360640_2_alg».proof.Proof.LibDenseEdges
import Idealize.ShloMosaic.PureOps.Ideal
import Idealize.ShloMosaic.Lib.ReduceAll
import Idealize.ShloMosaic.Lib.Affine
import Idealize.ShloMosaic.Lib.ValueIdx

noncomputable section

namespace Cert.FiniteInputs

open Idealize.ShloMosaic Cert.DenseEdges Cert.Pre_finite_inputs

variable [Cert.Pre_finite_inputs.Facts]

/-- The scalar shape has one index. -/
instance : Subsingleton S_.Idx := ⟨fun _ _ => funext fun d => d.elim0⟩

/-- An extended real whose absolute value is below +∞ is a real number. -/
theorem isReal_of_abs_lt (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hb : ∀ b : Bool, BitVec.ofBool b = 1#1 → b = true := fun b => by cases b <;> decide
  have h' : max x (-x) < ⊤ := of_decide_eq_true (hb _ h)
  induction x using EReal.rec with
  | bot => simp at h'
  | coe r => exact ⟨r, rfl⟩
  | top => simp at h'

/-- Under the precondition every entry of each of the six inputs is a real number. -/
theorem entries_real (a0 : FVec Ideal S64x1024x16 .f32) (a1 : FVec Ideal S64x1024x1024 .f32) (a2 : FVec Ideal S64x16 .f32)
    (a3 : FVec Ideal S64 .f32) (a4 : FVec Ideal S32x64 .f32) (a5 : FVec Ideal S32 .f32)
    (h : fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) := by
  have h0 := congrFun h ValueIdx.ix0
  dsimp only [fn, fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => isReal_of_abs_lt _ (Host.reduce_andi_all _ _ _ _ _ e0 i),
    fun i => isReal_of_abs_lt _ (Host.reduce_andi_all _ _ _ _ _ e1 i),
    fun i => isReal_of_abs_lt _ (Host.reduce_andi_all _ _ _ _ _ e2 i),
    fun i => isReal_of_abs_lt _ (Host.reduce_andi_all _ _ _ _ _ e3 i),
    fun i => isReal_of_abs_lt _ (Host.reduce_andi_all _ _ _ _ _ e4 i),
    fun i => isReal_of_abs_lt _ (Host.reduce_andi_all _ _ _ _ _ e5 i)⟩

end Cert.FiniteInputs

end
-- ==== Proof.lean ====
/-
  A two-layer graph network on 64 graphs of 1024 nodes: the kernel against its reference, over the extended reals.

  Both programs compute, for every graph b with weights g and node features x,
      a = x · W1ᵀ + b1,   h = relu (P a),   p = h · W2ᵀ + b2,   o = relu (P p),
  where P is "average over a node's neighbours and the node itself": with d n the guarded reciprocal of the looped
  degree (∑ m, g n m) + 1,
      (P a) n = ∑ m, ((g n m + [n = m]) · d n) · a m        in the reference, which forms the matrix (g + I) · d, and
      (P a) n = ((∑ m, g n m · a m) + a n) · d n              in the kernel, which never does.
  The two agree because the loop contributes a n and d n is constant along the sum — distributivity and a factor moved
  across a finite sum, which hold when every number involved is real.  The precondition says every input entry is a
  real number; sums, products, maxima and the guarded reciprocal of real numbers are real, so the identity applies at
  both layers (Proof/LibLoopedMean.lean).  The degree identity itself needs no finiteness.

  The modules:  Spec — the common function G of the six argument arrays;  KernelPoint — one grid point's body read
  entry by entry;  KernelWhole — the 64 points' blocks tile the result, which ends at G;  RefWhole — the reference's
  stages read entry by entry, equal to G on real-valued inputs;  FiniteInputs — the precondition gives real-valued
  inputs.  The kernel's idealization changed no operation, so there is nothing to preserve; the three frames are the
  generated ones (the reference's is its generated run with the result dropped).
-/
import proofs.«120758_j35673998360640_2_alg».proof.Defs
import proofs.«120758_j35673998360640_2_alg».proof.Proof.Gen.Kernel
import proofs.«120758_j35673998360640_2_alg».proof.Proof.Gen.Kernel.Skeleton
import proofs.«120758_j35673998360640_2_alg».proof.Proof.Gen.Kernel.Launch
import proofs.«120758_j35673998360640_2_alg».proof.Proof.Gen.Kernel.Points
import proofs.«120758_j35673998360640_2_alg».proof.Proof.Gen.Kernel.Frame
import proofs.«120758_j35673998360640_2_alg».proof.Proof.Gen.KernelIdeal
import proofs.«120758_j35673998360640_2_alg».proof.Proof.Gen.KernelIdeal.Skeleton
import proofs.«120758_j35673998360640_2_alg».proof.Proof.Gen.KernelIdeal.Launch
import proofs.«120758_j35673998360640_2_alg».proof.Proof.Gen.KernelIdeal.Points
import proofs.«120758_j35673998360640_2_alg».proof.Proof.Gen.KernelIdeal.Frame
import proofs.«120758_j35673998360640_2_alg».proof.Proof.Gen.ReferenceIdeal
import proofs.«120758_j35673998360640_2_alg».proof.Proof.Gen.KernelIdeal.Value
import proofs.«120758_j35673998360640_2_alg».proof.Proof.Gen.ReferenceIdeal.Run
import proofs.«120758_j35673998360640_2_alg».proof.Proof.Gen.ReferenceIdeal.Read
import proofs.«120758_j35673998360640_2_alg».proof.Proof.Gen.Pre_finite_inputs
import proofs.«120758_j35673998360640_2_alg».proof.Proof.KernelWhole
import proofs.«120758_j35673998360640_2_alg».proof.Proof.RefWhole
import proofs.«120758_j35673998360640_2_alg».proof.Proof.FiniteInputs
import Idealize.ShloMosaic.Adequacy
import Idealize.ShloMosaic.Init

noncomputable section

namespace Cert.Proof

open Idealize.ShloMosaic Idealize.SL.Sem

/-- The word-level kernel terminates, faults nowhere, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten when it was read over the extended reals. -/
theorem preserves : Cert.preserves_Kernel_KernelIdeal := trivial

/-- From memories that agree on the six arguments, all of them real-valued, the kernel's result array ends at the
    specification G of the arguments (its 64 blocks, one per graph), and the reference's at its own composed term,
    which on real-valued arguments is G as well. -/
theorem algebraic : Cert.algebraic_KernelIdeal_ReferenceIdeal := by
  intro m ρ m' ρ' hpre hagree
  refine ⟨fun c => Cert.KernelIdeal.Whole.spec m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := Cert.FiniteInputs.entries_real _ _ _ _ _ _ (hpre c)
  rw [Cert.ReferenceIdeal.Read.val_main_v30_eq, (hagree c).1, (hagree c).2.1, (hagree c).2.2.1, (hagree c).2.2.2.1,
    (hagree c).2.2.2.2.1, (hagree c).2.2.2.2.2]
  exact Cert.ReferenceIdeal.Whole.ref_eq_G _ _ _ _ _ _ h0 h1 h2 h3 h4 h5

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
